-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x32 : Shape := ⟨4, ![32, 64, 64, 32]⟩
abbrev S16x32 : Shape := ⟨2, ![16, 32]⟩
abbrev S16 : Shape := ⟨1, ![16]⟩
abbrev S_ : Shape := ⟨0, ![]⟩

class Facts : Prop where
  bcast_S_S32x64x64x32 : S_.BroadcastsInDim S32x64x64x32 (![] : Fin 0 → Fin S32x64x64x32.rank)
  reducesTo_S32x64x64x32_S_d0_1_2_3 : S32x64x64x32.ReducesTo [0, 1, 2, 3] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S32x64x64x32 .f32) (main_arg1 : FVec F S16x32 .f32) (main_arg2 : FVec F S16x32 .f32) (main_arg3 : FVec F S16 .f32) : IVec S_ 1 :=
  let main_v0 : FVec F S32x64x64x32 .f32 := Host.absf main_arg0
  let main_cst : FVec F S_ .f32 := constant S_ .f32 0x7F800000#32
  let main_v1 : FVec F S32x64x64x32 .f32 := broadcastInDim S32x64x64x32 ![] bcast_S_S32x64x64x32 main_cst
  let main_v2 : IVec S32x64x64x32 1 := cmpf .olt main_v0 main_v1
  let main_c : IVec S_ 1 := constantI S_ 1 1#1
  let main_v3 : IVec S_ 1 := (fun x v => Host.reduce IntOp.andi x v reducesTo_S32x64x64x32_S_d0_1_2_3 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S32x64x64x32 : Shape := ⟨4, ![32, 64, 64, 32]⟩
abbrev S16x32 : Shape := ⟨2, ![16, 32]⟩
abbrev S16 : Shape := ⟨1, ![16]⟩
abbrev S_ : Shape := ⟨0, ![]⟩
abbrev S1 : Shape := ⟨1, ![1]⟩
abbrev S131072x32 : Shape := ⟨2, ![131072, 32]⟩
abbrev S32x131072 : Shape := ⟨2, ![32, 131072]⟩
abbrev S32x16 : Shape := ⟨2, ![32, 16]⟩
abbrev S1x16 : Shape := ⟨2, ![1, 16]⟩
abbrev S16x131072 : Shape := ⟨2, ![16, 131072]⟩
abbrev S32x4096 : Shape := ⟨2, ![32, 4096]⟩
abbrev S16x4096 : Shape := ⟨2, ![16, 4096]⟩
abbrev S32x1 : Shape := ⟨2, ![32, 1]⟩
abbrev S1x1 : Shape := ⟨2, ![1, 1]⟩
abbrev S4096 : Shape := ⟨1, ![4096]⟩
abbrev S1x4096 : Shape := ⟨2, ![1, 4096]⟩
abbrev S131072x16 : Shape := ⟨2, ![131072, 16]⟩
abbrev S32x64x64x16 : Shape := ⟨4, ![32, 64, 64, 16]⟩

abbrev nBuf : Space → Nat
  | .hbm => 44
  | .vmem => 7
  | .smem => 0
  | _ => 0

abbrev bufTy : (tb : Table) → Fin (tcTables nBuf tb) → BufTy
  | .hbm, ⟨0, _⟩ => ⟨S32x64x64x32, .f32⟩
  | .hbm, ⟨1, _⟩ => ⟨S16x32, .f32⟩
  | .hbm, ⟨2, _⟩ => ⟨S16x32, .f32⟩
  | .hbm, ⟨3, _⟩ => ⟨S16, .f32⟩
  | .hbm, ⟨4, _⟩ => ⟨S_, .f32⟩
  | .hbm, ⟨5, _⟩ => ⟨S16x32, .f32⟩
  | .hbm, ⟨6, _⟩ => ⟨S16x32, .f32⟩
  | .hbm, ⟨7, _⟩ => ⟨S16x32, .f32⟩
  | .hbm, ⟨8, _⟩ => ⟨S_, .f32⟩
  | .hbm, ⟨9, _⟩ => ⟨S16x32, .f32⟩
  | .hbm, ⟨10, _⟩ => ⟨S16x32, .f32⟩
  | .hbm, ⟨11, _⟩ => ⟨S16x32, .f32⟩
  | .hbm, ⟨12, _⟩ => ⟨S_, .f32⟩
  | .hbm, ⟨13, _⟩ => ⟨S16x32, .f32⟩
  | .hbm, ⟨14, _⟩ => ⟨S16x32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S16, .f32⟩
  | .hbm, ⟨28, _⟩ => ⟨S16, .f32⟩
  | .hbm, ⟨29, _⟩ => ⟨S16x32, .f32⟩
  | .hbm, ⟨30, _⟩ => ⟨S_, .f32⟩
  | .hbm, ⟨31, _⟩ => ⟨S16x32, .f32⟩
  | .hbm, ⟨32, _⟩ => ⟨S16x32, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S131072x32, .f32⟩
  | .hbm, ⟨37, _⟩ => ⟨S32x131072, .f32⟩
  | .hbm, ⟨38, _⟩ => ⟨S32x16, .f32⟩
  | .hbm, ⟨39, _⟩ => ⟨S32x16, .f32⟩
  | .hbm, ⟨40, _⟩ => ⟨S1x16, .f32⟩
  | .hbm, ⟨41, _⟩ => ⟨S16x131072, .f32⟩
  | .hbm, ⟨42, _⟩ => ⟨S131072x16, .f32⟩
  | .hbm, ⟨43, _⟩ => ⟨S32x64x64x16, .f32⟩
  | .local _ .vmem, ⟨0, _⟩ => ⟨S32x4096, .f32⟩
  | .local _ .vmem, ⟨1, _⟩ => ⟨S32x4096, .f32⟩
  | .local _ .vmem, ⟨2, _⟩ => ⟨S32x16, .f32⟩
  | .local _ .vmem, ⟨3, _⟩ => ⟨S32x16, .f32⟩
  | .local _ .vmem, ⟨4, _⟩ => ⟨S1x16, .f32⟩
  | .local _ .vmem, ⟨5, _⟩ => ⟨S16x4096, .f32⟩
  | .local _ .vmem, ⟨6, _⟩ => ⟨S16x4096, .f32⟩
  | _, _ => ⟨S32x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16x32 : S_.BroadcastsInDim S16x32 (![] : Fin 0 → Fin S16x32.rank)
  reducesTo_S16_S_d0 : S16.ReducesTo [0] S_
  h_S_ : 0 < S_.numel
  bcast_S_S1 : S_.BroadcastsInDim S1 (![] : Fin 0 → Fin S1.rank)
  bcast_S1_S16_0 : S1.BroadcastsInDim S16 (![0] : Fin 1 → Fin S16.rank)
  reducesTo_S16x32_S16_d1 : S16x32.ReducesTo [1] S16
  shapeCasts_S32x64x64x32_S131072x32 : S32x64x64x32.ShapeCasts S131072x32
  transposes_S131072x32_S32x131072_1_0 : S131072x32.Transposes [1, 0] S32x131072
  transposes_S16x32_S32x16_1_0 : S16x32.Transposes [1, 0] S32x16
  shapeCasts_S16_S1x16 : S16.ShapeCasts S1x16
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S32x16_S32x1_0_0 : ∀ a, (![0, 0] : Fin 2 → Nat) a + S32x1.size a ≤ S32x16.size a
  h_S32x1 : 0 < S32x1.numel
  shapeCasts_S32x1_S32x1 : S32x1.ShapeCasts S32x1
  inb_S1x16_S1x1_0_0 : ∀ a, (![0, 0] : Fin 2 → Nat) a + S1x1.size a ≤ S1x16.size a
  h_S1x1 : 0 < S1x1.numel
  shapeCasts_S1x1_S1x1 : S1x1.ShapeCasts S1x1
  broadcasts_S32x1_S32x4096 : S32x1.Broadcasts S32x4096
  reduces_S32x4096_S4096 : S32x4096.Reduces [0] S4096
  shapeCasts_S4096_S1x4096 : S4096.ShapeCasts S1x4096
  broadcasts_S1x1_S1x4096 : S1x1.Broadcasts S1x4096
  inb_S32x16_S32x1_0_1 : ∀ a, (![0, 1] : Fin 2 → Nat) a + S32x1.size a ≤ S32x16.size a
  inb_S1x16_S1x1_0_1 : ∀ a, (![0, 1] : Fin 2 → Nat) a + S1x1.size a ≤ S1x16.size a
  inb_S32x16_S32x1_0_2 : ∀ a, (![0, 2] : Fin 2 → Nat) a + S32x1.size a ≤ S32x16.size a
  inb_S1x16_S1x1_0_2 : ∀ a, (![0, 2] : Fin 2 → Nat) a + S1x1.size a ≤ S1x16.size a
  inb_S32x16_S32x1_0_3 : ∀ a, (![0, 3] : Fin 2 → Nat) a + S32x1.size a ≤ S32x16.size a
  inb_S1x16_S1x1_0_3 : ∀ a, (![0, 3] : Fin 2 → Nat) a + S1x1.size a ≤ S1x16.size a
  inb_S32x16_S32x1_0_4 : ∀ a, (![0, 4] : Fin 2 → Nat) a + S32x1.size a ≤ S32x16.size a
  inb_S1x16_S1x1_0_4 : ∀ a, (![0, 4] : Fin 2 → Nat) a + S1x1.size a ≤ S1x16.size a
  inb_S32x16_S32x1_0_5 : ∀ a, (![0, 5] : Fin 2 → Nat) a + S32x1.size a ≤ S32x16.size a
  inb_S1x16_S1x1_0_5 : ∀ a, (![0, 5] : Fin 2 → Nat) a + S1x1.size a ≤ S1x16.size a
  inb_S32x16_S32x1_0_6 : ∀ a, (![0, 6] : Fin 2 → Nat) a + S32x1.size a ≤ S32x16.size a
  inb_S1x16_S1x1_0_6 : ∀ a, (![0, 6] : Fin 2 → Nat) a + S1x1.size a ≤ S1x16.size a
  inb_S32x16_S32x1_0_7 : ∀ a, (![0, 7] : Fin 2 → Nat) a + S32x1.size a ≤ S32x16.size a
  inb_S1x16_S1x1_0_7 : ∀ a, (![0, 7] : Fin 2 → Nat) a + S1x1.size a ≤ S1x16.size a
  inb_S32x16_S32x1_0_8 : ∀ a, (![0, 8] : Fin 2 → Nat) a + S32x1.size a ≤ S32x16.size a
  inb_S1x16_S1x1_0_8 : ∀ a, (![0, 8] : Fin 2 → Nat) a + S1x1.size a ≤ S1x16.size a
  inb_S32x16_S32x1_0_9 : ∀ a, (![0, 9] : Fin 2 → Nat) a + S32x1.size a ≤ S32x16.size a
  inb_S1x16_S1x1_0_9 : ∀ a, (![0, 9] : Fin 2 → Nat) a + S1x1.size a ≤ S1x16.size a
  inb_S32x16_S32x1_0_10 : ∀ a, (![0, 10] : Fin 2 → Nat) a + S32x1.size a ≤ S32x16.size a
  inb_S1x16_S1x1_0_10 : ∀ a, (![0, 10] : Fin 2 → Nat) a + S1x1.size a ≤ S1x16.size a
  inb_S32x16_S32x1_0_11 : ∀ a, (![0, 11] : Fin 2 → Nat) a + S32x1.size a ≤ S32x16.size a
  inb_S1x16_S1x1_0_11 : ∀ a, (![0, 11] : Fin 2 → Nat) a + S1x1.size a ≤ S1x16.size a
  inb_S32x16_S32x1_0_12 : ∀ a, (![0, 12] : Fin 2 → Nat) a + S32x1.size a ≤ S32x16.size a
  inb_S1x16_S1x1_0_12 : ∀ a, (![0, 12] : Fin 2 → Nat) a + S1x1.size a ≤ S1x16.size a
  inb_S32x16_S32x1_0_13 : ∀ a, (![0, 13] : Fin 2 → Nat) a + S32x1.size a ≤ S32x16.size a
  inb_S1x16_S1x1_0_13 : ∀ a, (![0, 13] : Fin 2 → Nat) a + S1x1.size a ≤ S1x16.size a
  inb_S32x16_S32x1_0_14 : ∀ a, (![0, 14] : Fin 2 → Nat) a + S32x1.size a ≤ S32x16.size a
  inb_S1x16_S1x1_0_14 : ∀ a, (![0, 14] : Fin 2 → Nat) a + S1x1.size a ≤ S1x16.size a
  inb_S32x16_S32x1_0_15 : ∀ a, (![0, 15] : Fin 2 → Nat) a + S32x1.size a ≤ S32x16.size a
  inb_S1x16_S1x1_0_15 : ∀ a, (![0, 15] : Fin 2 → Nat) a + S1x1.size a ≤ S1x16.size a
  concatenates_S1x4096_S1x4096_S1x4096_S1x4096_S1x4096_S1x4096_S1x4096_S1x4096_S1x4096_S1x4096_S1x4096_S1x4096_S1x4096_S1x4096_S1x4096_S1x4096_S16x4096_d0 : Shape.Concatenates [S1x4096, S1x4096, S1x4096, S1x4096, S1x4096, S1x4096, S1x4096, S1x4096, S1x4096, S1x4096, S1x4096, S1x4096, S1x4096, S1x4096, S1x4096, S1x4096] S16x4096 0
  inb_S16x4096_S16x4096_0_0 : ∀ a, (![0, 0] : Fin 2 → Nat) a + S16x4096.size a ≤ S16x4096.size a
  h_S16x4096 : 0 < S16x4096.numel
  transposes_S16x131072_S131072x16_1_0 : S16x131072.Transposes [1, 0] S131072x16
  shapeCasts_S131072x16_S32x64x64x16 : S131072x16.ShapeCasts S32x64x64x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x131072.size a
  hwx0_0 : ∀ i : grid0.Coords, EltTy.bits .f32 = 32 ∨ (Rect.block (s := S32x131072) S32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x131072.size a
  hwx0_4 : ∀ i : grid0.Coords, EltTy.bits .f32 = 32 ∨ (Rect.block (s := S16x131072) S16x4096.size (cc0_transform_4 i) (hinb0_4 i)).WholeWords (EltTy.packing .f32)

variable [Facts₀]

abbrev win0_0 : Pipeline.Window sig grid0 :=
  Pipeline.Window.ofSpec (Memref.whole main_v15) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S16x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x64x32 : Shape := ⟨4, ![32, 64, 64, 32]⟩
abbrev S16x32 : Shape := ⟨2, ![16, 32]⟩
abbrev S16 : Shape := ⟨1, ![16]⟩
abbrev S_ : Shape := ⟨0, ![]⟩
abbrev S1 : Shape := ⟨1, ![1]⟩
abbrev S131072x1x32 : Shape := ⟨3, ![131072, 1, 32]⟩
abbrev S1x16x32 : Shape := ⟨3, ![1, 16, 32]⟩
abbrev S131072x16x32 : Shape := ⟨3, ![131072, 16, 32]⟩
abbrev S131072x16 : Shape := ⟨2, ![131072, 16]⟩
abbrev S1x16 : Shape := ⟨2, ![1, 16]⟩
abbrev S32x64x64x16 : Shape := ⟨4, ![32, 64, 64, 16]⟩

abbrev nBuf : Space → Nat
  | .hbm => 54
  | .vmem => 0
  | .smem => 0
  | _ => 0

abbrev bufTy : (tb : Table) → Fin (tcTables nBuf tb) → BufTy
  | .hbm, ⟨0, _⟩ => ⟨S32x64x64x32, .f32⟩
  | .hbm, ⟨1, _⟩ => ⟨S16x32, .f32⟩
  | .hbm, ⟨2, _⟩ => ⟨S16x32, .f32⟩
  | .hbm, ⟨3, _⟩ => ⟨S16, .f32⟩
  | .hbm, ⟨4, _⟩ => ⟨S_, .f32⟩
  | .hbm, ⟨5, _⟩ => ⟨S16x32, .f32⟩
  | .hbm, ⟨6, _⟩ => ⟨S16x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S16, .f32⟩
  | .hbm, ⟨19, _⟩ => ⟨S16, .f32⟩
  | .hbm, ⟨20, _⟩ => ⟨S131072x1x32, .f32⟩
  | .hbm, ⟨21, _⟩ => ⟨S1x16x32, .f32⟩
  | .hbm, ⟨22, _⟩ => ⟨S131072x16x32, .f32⟩
  | .hbm, ⟨23, _⟩ => ⟨S131072x16x32, .f32⟩
  | .hbm, ⟨24, _⟩ => ⟨S131072x16x32, .f32⟩
  | .hbm, ⟨25, _⟩ => ⟨S131072x16x32, .f32⟩
  | .hbm, ⟨26, _⟩ => ⟨S16x32, .f32⟩
  | .hbm, ⟨27, _⟩ => ⟨S1x16x32, .f32⟩
  | .hbm, ⟨28, _⟩ => ⟨S131072x16x32, .f32⟩
  | .hbm, ⟨29, _⟩ => ⟨S131072x16x32, .f32⟩
  | .hbm, ⟨30, _⟩ => ⟨S_, .f32⟩
  | .hbm, ⟨31, _⟩ => ⟨S131072x16x32, .f32⟩
  | .hbm, ⟨32, _⟩ => ⟨S131072x16x32, .f32⟩
  | .hbm, ⟨33, _⟩ => ⟨S_, .f32⟩
  | .hbm, ⟨34, _⟩ => ⟨S131072x16x32, .f32⟩
  | .hbm, ⟨35, _⟩ => ⟨S131072x16x32, .f32⟩
  | .hbm, ⟨36, _⟩ => ⟨S16x32, .f32⟩
  | .hbm, ⟨37, _⟩ => ⟨S_, .f32⟩
  | .hbm, ⟨38, _⟩ => ⟨S16x32, .f32⟩
  | .hbm, ⟨39, _⟩ => ⟨S16x32, .f32⟩
  | .hbm, ⟨40, _⟩ => ⟨S16x32, .f32⟩
  | .hbm, ⟨41, _⟩ => ⟨S_, .f32⟩
  | .hbm, ⟨42, _⟩ => ⟨S16x32, .f32⟩
  | .hbm, ⟨43, _⟩ => ⟨S16x32, .f32⟩
  | .hbm, ⟨44, _⟩ => ⟨S1x16x32, .f32⟩
  | .hbm, ⟨45, _⟩ => ⟨S131072x16x32, .f32⟩
  | .hbm, ⟨46, _⟩ => ⟨S131072x16x32, .f32⟩
  | .hbm, ⟨47, _⟩ => ⟨S_, .f32⟩
  | .hbm, ⟨48, _⟩ => ⟨S131072x16, .f32⟩
  | .hbm, ⟨49, _⟩ => ⟨S16, .f32⟩
  | .hbm, ⟨50, _⟩ => ⟨S1x16, .f32⟩
  | .hbm, ⟨51, _⟩ => ⟨S131072x16, .f32⟩
  | .hbm, ⟨52, _⟩ => ⟨S131072x16, .f32⟩
  | .hbm, ⟨53, _⟩ => ⟨S32x64x64x16, .f32⟩
  | _, _ => ⟨S32x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S16x32 : S_.BroadcastsInDim S16x32 (![] : Fin 0 → Fin S16x32.rank)
  reducesTo_S16_S_d0 : S16.ReducesTo [0] S_
  h_S_ : 0 < S_.numel
  bcast_S_S1 : S_.BroadcastsInDim S1 (![] : Fin 0 → Fin S1.rank)
  bcast_S1_S16_0 : S1.BroadcastsInDim S16 (![0] : Fin 1 → Fin S16.rank)
  shapeCasts_S32x64x64x32_S131072x1x32 : S32x64x64x32.ShapeCasts S131072x1x32
  bcast_S16x32_S1x16x32_1_2 : S16x32.BroadcastsInDim S1x16x32 (![1, 2] : Fin 2 → Fin S1x16x32.rank)
  bcast_S131072x1x32_S131072x16x32_0_1_2 : S131072x1x32.BroadcastsInDim S131072x16x32 (![0, 1, 2] : Fin 3 → Fin S131072x16x32.rank)
  bcast_S1x16x32_S131072x16x32_0_1_2 : S1x16x32.BroadcastsInDim S131072x16x32 (![0, 1, 2] : Fin 3 → Fin S131072x16x32.rank)
  bcast_S_S131072x16x32 : S_.BroadcastsInDim S131072x16x32 (![] : Fin 0 → Fin S131072x16x32.rank)
  reducesTo_S131072x16x32_S131072x16_d2 : S131072x16x32.ReducesTo [2] S131072x16
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  shapeCasts_S131072x16_S32x64x64x16 : S131072x16.ShapeCasts S32x64x64x16

variable [Facts₀]

class Facts : Prop extends Facts₀ where

variable [Facts]
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.LibSublaneSum.lean ====
/-
  A sum over the sublanes of an a x b array, read at a lane.

  A float reduction with <add> over axis 0 of an a x b array keeps one entry per lane.  Read over the extended
  reals at lane j it is the sum over the a sublanes d of the entry (d, j).  The accumulator and format facts are
  taken as variables, so the statement matches a printed reduction whatever proofs it carries.  (The companion for
  axis 1, a sum over lanes kept per row, is the lane sum of the column forms.)
-/
import Idealize.ShloMosaic.PureOps.Ideal
import Idealize.ShloMosaic.PureOps.Ideal.Laws
import Idealize.ShloMosaic.Lib.ValueIdx

noncomputable section

open scoped BigOperators

namespace Cert.Lib.SublaneSum

open Idealize.ShloMosaic Idealize.ShloMosaic.ValueIdx

/-- Over a lane index j, the source index whose sublane coordinate is d is (d, j). -/
theorem lift_cols {a b : ℕ} (h : (⟨2, ![a, b]⟩ : Shape).Reduces [(0 : Fin 2)] ⟨1, ![b]⟩) (j : Fin b) (d : Fin a) :
    h.lift (ix1 j) d = ix2 d j := by
  funext c
  refine Fin.ext ?_
  match c with
  | ⟨0, _⟩ => rfl
  | ⟨1, _⟩ => rfl

/-- A float sum over the sublanes of an a x b array, at the extended reals and at lane j, is the sum over d of x (d, j). -/
theorem multiReduction_add_cols {a b : ℕ} {φ : FTy} (x : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (j : Fin b) :
    multiReduction .add [(0 : Fin 2)] ⟨1, ![b]⟩ x acc h hφ hacc (ix1 j) = ∑ d : Fin a, x (ix2 d j) := by
  refine (Ideal.multiReduction_add_single x acc h hφ hacc (ix1 j)).trans ?_
  exact Finset.sum_congr rfl fun d _ => congrArg x (lift_cols h j d)

end Cert.Lib.SublaneSum

end
-- ==== Proof.KernelRow.lean ====
/-
  One output row of the tiled program's body.

  The body holds a 32 x 4096 block x of points (one point per lane, one coordinate per sublane), the 32 x 16
  tables mu and c (one column per component) and the 1 x 16 row of biases.  For component k it spreads column k
  of mu and of c over the lanes, forms max ((x - mu_k)^2 * c_k, -10) entry by entry, adds the 32 sublanes, and adds
  bias k: a 1 x 4096 row.  The 16 rows, laid one under the other, are the 16 x 4096 block it stores.

  `rowScore` is that row as one term; `block_eq` says the stored block is the concatenation of the 16 rows;
  `rowScore_apply` reads a row at a lane over the extended reals, and `block_apply` the block at (k, j):
      sum_d max ((x (d, j) - mu (d, k))^2 * c (d, k), -10) + bias (0, k).
-/
import proofs.«157063_j46755013984568_2_alg».proof.Proof.Gen.KernelIdeal.Frame
import proofs.«157063_j46755013984568_2_alg».proof.Proof.LibColumns
import proofs.«157063_j46755013984568_2_alg».proof.Proof.LibUnitRect
import proofs.«157063_j46755013984568_2_alg».proof.Proof.LibSublaneSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gmm.Kern

open Idealize.ShloMosaic Idealize.ShloMosaic.ValueIdx
open Cert.KernelIdeal Cert.KernelIdeal.Gen

variable {F : FTy → Type} [FloatOps F]

/-- The row of component scores from a block of points, one column of means, one column of scales and one bias. -/
def rowScore (x : FVec F S32x4096 .f32) (mu c : FVec F S32x1 .f32) (b : FVec F S1x1 .f32) : FVec F S1x4096 .f32 :=
  addf
    (shapeCast S1x4096
      (multiReduction .add [0] S4096
        (maximumf
          (mulf (mulf (subf x (broadcastTo S32x4096 mu broadcasts_S32x1_S32x4096))
                      (subf x (broadcastTo S32x4096 mu broadcasts_S32x1_S32x4096)))
                (broadcastTo S32x4096 c broadcasts_S32x1_S32x4096))
          (broadcast S32x4096 (Scalar.ofBits .f32 0xC1200000#32)))
        0x00000000#32 reduces_S32x4096_S4096 (.inl rfl) rfl)
      shapeCasts_S4096_S1x4096)
    (broadcastTo S1x4096 b broadcasts_S1x1_S1x4096)

/-- Column k of a 32 x 16 table, as a rectangle. -/
def colRect (k : Fin 16) : Rect S32x16 :=
  Rect.unit (s := S32x16) ![0, k.val] S32x1.size (fun a => by
    have := k.isLt
    match a with
    | ⟨0, _⟩ => show 0 + 32 ≤ 32; omega
    | ⟨1, _⟩ => show k.val + 1 ≤ 16; omega)

/-- Entry k of the 1 x 16 row of biases, as a rectangle. -/
def oneRect (k : Fin 16) : Rect S1x16 :=
  Rect.unit (s := S1x16) ![0, k.val] S1x1.size (fun a => by
    have := k.isLt
    match a with
    | ⟨0, _⟩ => show 0 + 1 ≤ 1; omega
    | ⟨1, _⟩ => show k.val + 1 ≤ 16; omega)

/-- The block of points as the body holds it after its load. -/
def ptsOf (x0 : Vec F S32x4096 .f32) : FVec F S32x4096 .f32 :=
  shapeCast S32x4096 (View.ld x0 r0_0) shapeCasts_S32x4096_S32x4096

/-- Column k of a 32 x 16 table as the body holds it after its load. -/
def colOf (x : Vec F S32x16 .f32) (k : Fin 16) : FVec F S32x1 .f32 :=
  shapeCast S32x1 (View.ld x (colRect k)) shapeCasts_S32x1_S32x1

/-- Entry k of the bias row as the body holds it after its load. -/
def oneOf (x : Vec F S1x16 .f32) (k : Fin 16) : FVec F S1x1 .f32 :=
  shapeCast S1x1 (View.ld x (oneRect k)) shapeCasts_S1x1_S1x1

/-- Row k of the stored block, from the four staged blocks. -/
def rowAt (x0 : Vec F S32x4096 .f32) (x1 x2 : Vec F S32x16 .f32) (x3 : Vec F S1x16 .f32) (k : Fin 16) : FVec F S1x4096 .f32 :=
  rowScore (ptsOf x0) (colOf x1 k) (colOf x2 k) (oneOf x3 k)

theorem hz : (![0, 0] : Fin 2 → Nat) = fun _ => 0 := funext fun a => by fin_cases a <;> rfl

/-- The 16 row extents along axis 0 add up to the block's: the shapes of the family are the printed list's. -/
theorem rows_shapes (x0 : Vec F S32x4096 .f32) (x1 x2 : Vec F S32x16 .f32) (x3 : Vec F S1x16 .f32) :
    Shape.Concatenates ((List.ofFn fun k : Fin 16 => (⟨S1x4096, rowAt x0 x1 x2 x3 k⟩ : (s : Shape) × (s.Idx → F .f32))).map (·.1)) S16x4096 0 :=
  concatenates_S1x4096_S1x4096_S1x4096_S1x4096_S1x4096_S1x4096_S1x4096_S1x4096_S1x4096_S1x4096_S1x4096_S1x4096_S1x4096_S1x4096_S1x4096_S1x4096_S16x4096_d0

/-- The block the body stores is the 16 rows laid one under the other. -/
theorem block_eq (x0 : Vec F S32x4096 .f32) (x1 x2 : Vec F S32x16 .f32) (x3 : Vec F S1x16 .f32) :
    out0_4 x0 x1 x2 x3
      = concatenate S16x4096 0 (List.ofFn fun k : Fin 16 => (⟨S1x4096, rowAt x0 x1 x2 x3 k⟩ : (s : Shape) × (s.Idx → F .f32)))
          (rows_shapes x0 x1 x2 x3) := by
  unfold out0_4
  rw [View.canon_unit_zero hz]
  rfl

/-! ## Read over the extended reals -/

/-- A row at lane j: the 32 clamped terms added, plus the bias. -/
theorem rowScore_apply (x : FVec Ideal S32x4096 .f32) (mu c : FVec Ideal S32x1 .f32) (b : FVec Ideal S1x1 .f32) (j : Fin 4096) :
    rowScore x mu c b (ix2 (0 : Fin 1) j)
      = (∑ d : Fin 32, max (((x (ix2 d j) - mu (ix2 d (0 : Fin 1))) * (x (ix2 d j) - mu (ix2 d (0 : Fin 1)))) * c (ix2 d (0 : Fin 1)))
            (Ideal.ofBits .f32 0xC1200000#32))
        + b (ix2 (0 : Fin 1) (0 : Fin 1)) := by
  unfold rowScore
  rw [addf_apply]
  refine congrArg₂ (· + ·) ?_ ?_
  · refine (shapeCast_a_1a_apply _ _ (0 : Fin 1) j).trans ?_
    refine (Cert.Lib.SublaneSum.multiReduction_add_cols _ _ _ _ _ j).trans ?_
    refine Finset.sum_congr rfl fun d _ => ?_
    rw [maximumf_apply, mulf_apply, mulf_apply, subf_apply, Cert.Proof.Columns.broadcastTo_a1_ab_apply,
      Cert.Proof.Columns.broadcastTo_a1_ab_apply, broadcast_apply]
    rfl
  · exact Cert.Proof.Columns.broadcastTo_a1_ab_apply _ _ (0 : Fin 1) j

/-- Column k of a table read at sublane d is the table's entry (d, k). -/
theorem colRect_idx (k : Fin 16) (d : Fin 32) : (colRect k).idx (ix2 d (0 : Fin 1)) = ix2 d k :=
  Cert.LibUnitRect.unit_idx2 _ _ _ _ d k (by show d.val = 0 + d.val; omega) (by show k.val = k.val + 0; omega)

/-- Entry k of the bias row. -/
theorem oneRect_idx (k : Fin 16) : (oneRect k).idx (ix2 (0 : Fin 1) (0 : Fin 1)) = ix2 (0 : Fin 1) k :=
  Cert.LibUnitRect.unit_idx2 _ _ _ _ (0 : Fin 1) k (by show (0 : Nat) = 0 + 0; omega) (by show k.val = k.val + 0; omega)

theorem ptsOf_apply (x0 : Vec F S32x4096 .f32) (i : S32x4096.Idx) : ptsOf x0 i = x0 i :=
  (congrFun (shapeCast_self (s := S32x4096) (View.ld x0 r0_0) shapeCasts_S32x4096_S32x4096) i).trans
    (congrFun (View.ld_unit_zero (S := S32x4096) hz _ x0) i)

theorem colOf_apply (x : Vec F S32x16 .f32) (k : Fin 16) (d : Fin 32) : colOf x k (ix2 d (0 : Fin 1)) = x (ix2 d k) :=
  (congrFun (shapeCast_self (s := S32x1) (View.ld x (colRect k)) shapeCasts_S32x1_S32x1) (ix2 d (0 : Fin 1))).trans
    (congrArg x (colRect_idx k d))

theorem oneOf_apply (x : Vec F S1x16 .f32) (k : Fin 16) : oneOf x k (ix2 (0 : Fin 1) (0 : Fin 1)) = x (ix2 (0 : Fin 1) k) :=
  (congrFun (shapeCast_self (s := S1x1) (View.ld x (oneRect k)) shapeCasts_S1x1_S1x1) (ix2 (0 : Fin 1) (0 : Fin 1))).trans
    (congrArg x (oneRect_idx k))

/-- The stored block at (k, j): the 32 clamped terms of point j against component k, added, plus bias k. -/
theorem block_apply (x0 : Vec Ideal S32x4096 .f32) (x1 x2 : Vec Ideal S32x16 .f32) (x3 : Vec Ideal S1x16 .f32) (k : Fin 16) (j : Fin 4096) :
    out0_4 x0 x1 x2 x3 (ix2 k j)
      = (∑ d : Fin 32, max (((x0 (ix2 d j) - x1 (ix2 d k)) * (x0 (ix2 d j) - x1 (ix2 d k))) * x2 (ix2 d k))
            (Ideal.ofBits .f32 0xC1200000#32))
        + x3 (ix2 (0 : Fin 1) k) := by
  rw [block_eq]
  refine (concatenate_ofFn_unit_apply (t := S16x4096) (s₁ := S1x4096) (0 : Fin 2) (fun k' : Fin 16 => rowAt x0 x1 x2 x3 k')
    (rows_shapes x0 x1 x2 x3) rfl rfl (ix2 k j : S16x4096.Idx) k rfl (ix2 (0 : Fin 1) j : S1x4096.Idx) (fun b hb => ?_)).trans ?_
  · match b with
    | ⟨0, _⟩ => exact absurd rfl hb
    | ⟨1, _⟩ => rfl
  · show rowAt x0 x1 x2 x3 k (ix2 (0 : Fin 1) j) = _
    unfold rowAt
    rw [rowScore_apply]
    simp only [ptsOf_apply, colOf_apply, oneOf_apply]

end Cert.Gmm.Kern

end
-- ==== Proof.KernelBlocks.lean ====
/-
  From the blocks to the whole array.

  The call runs the body at 32 grid points.  At point t the body sees lanes 4096 t .. 4096 t + 4095 of the 32 x 131072
  array of points, the whole 32 x 16 tables and the whole bias row, and its 16 x 4096 block goes back to the same lanes
  of the 16 x 131072 result.  So the result, entry by entry, is one function of the four arrays the call stages:
      scoreT X Mu C B (k, n) = sum_d max ((X (d, n) - Mu (d, k))^2 * C (d, k), -10) + B (0, k).
  Each point writes the block of that function its lanes name (`flushed_eq`), the 32 blocks cover the result
  (`cover4`), hence the array after the call is scoreT of the staged arrays (`final4`).
-/
import proofs.«157063_j46755013984568_2_alg».proof.Proof.KernelRow
import Idealize.ShloMosaic.Lib.Pipeline.Value

noncomputable section

open scoped BigOperators

namespace Cert.Gmm.Kern

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The result array as one function of the four staged arrays. -/
def scoreT (X : S32x131072.Idx → EReal) (Mu C : S32x16.Idx → EReal) (B : S1x16.Idx → EReal) : S16x131072.Idx → EReal := fun i =>
  (∑ d : Fin 32, max (((X (ix2 d ⟨(i 1).val, idx2_lt1 i⟩) - Mu (ix2 d ⟨(i 0).val, idx2_lt0 i⟩))
        * (X (ix2 d ⟨(i 1).val, idx2_lt1 i⟩) - Mu (ix2 d ⟨(i 0).val, idx2_lt0 i⟩))) * C (ix2 d ⟨(i 0).val, idx2_lt0 i⟩))
      (Ideal.ofBits .f32 0xC1200000#32))
    + B (ix2 (0 : Fin 1) ⟨(i 0).val, idx2_lt0 i⟩)

theorem scoreT_apply (X : S32x131072.Idx → EReal) (Mu C : S32x16.Idx → EReal) (B : S1x16.Idx → EReal) (k : Fin 16) (n : Fin 131072) :
    scoreT X Mu C B (ix2 k n)
      = (∑ d : Fin 32, max (((X (ix2 d n) - Mu (ix2 d k)) * (X (ix2 d n) - Mu (ix2 d k))) * C (ix2 d k))
            (Ideal.ofBits .f32 0xC1200000#32))
        + B (ix2 (0 : Fin 1) k) := rfl

/-- The printed index maps, decided over the grid: the points and the result move one block of lanes per grid point,
    the tables and the bias row stay. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The block of points at grid point t holds lanes 4096 t + j of the staged array. -/
theorem iblk0_apply (c : Dev nD) (t : Fin cfg0.N) (d : Fin 32) (j : Fin 4096) (n : Fin 131072) (hn : n.val = t.val * 4096 + j.val) :
    (iblk m c 0 t : Vec Ideal S32x4096 .f32) (ix2 d j) = (V m c main_v15 : S32x131072.Idx → EReal) (ix2 d n) := by
  obtain ⟨e0, e1, -⟩ := idx_facts t
  unfold iblk
  rw [View.read_apply]
  show V m c main_v15 _ = V m c main_v15 _
  refine congrArg (V m c main_v15) ?_
  funext a; apply Fin.ext
  match a with
  | ⟨0, _⟩ => show win0_0.index t (0 : Fin 2) * 32 + 1 * d.val = d.val; rw [e0]; omega
  | ⟨1, _⟩ => show win0_0.index t (1 : Fin 2) * 4096 + 1 * j.val = n.val; rw [e1, hn]; omega

/-- The table of means at every grid point is the whole staged table. -/
theorem iblk1_apply (c : Dev nD) (t : Fin cfg0.N) (d : Fin 32) (k : Fin 16) :
    (iblk m c 1 t : Vec Ideal S32x16 .f32) (ix2 d k) = (V m c main_v16 : S32x16.Idx → EReal) (ix2 d k) := by
  obtain ⟨-, -, e0, e1, -⟩ := idx_facts t
  unfold iblk
  rw [View.read_apply]
  show V m c main_v16 _ = V m c main_v16 _
  refine congrArg (V m c main_v16) ?_
  funext a; apply Fin.ext
  match a with
  | ⟨0, _⟩ => show win0_1.index t (0 : Fin 2) * 32 + 1 * d.val = d.val; rw [e0]; omega
  | ⟨1, _⟩ => show win0_1.index t (1 : Fin 2) * 16 + 1 * k.val = k.val; rw [e1]; omega

/-- The table of scales at every grid point is the whole staged table. -/
theorem iblk2_apply (c : Dev nD) (t : Fin cfg0.N) (d : Fin 32) (k : Fin 16) :
    (iblk m c 2 t : Vec Ideal S32x16 .f32) (ix2 d k) = (V m c main_v17 : S32x16.Idx → EReal) (ix2 d k) := by
  obtain ⟨-, -, -, -, e0, e1, -⟩ := idx_facts t
  unfold iblk
  rw [View.read_apply]
  show V m c main_v17 _ = V m c main_v17 _
  refine congrArg (V m c main_v17) ?_
  funext a; apply Fin.ext
  match a with
  | ⟨0, _⟩ => show win0_2.index t (0 : Fin 2) * 32 + 1 * d.val = d.val; rw [e0]; omega
  | ⟨1, _⟩ => show win0_2.index t (1 : Fin 2) * 16 + 1 * k.val = k.val; rw [e1]; omega

/-- The bias row at every grid point is the whole staged row. -/
theorem iblk3_apply (c : Dev nD) (t : Fin cfg0.N) (k : Fin 16) :
    (iblk m c 3 t : Vec Ideal S1x16 .f32) (ix2 (0 : Fin 1) k) = (V m c main_v18 : S1x16.Idx → EReal) (ix2 (0 : Fin 1) k) := by
  obtain ⟨-, -, -, -, -, -, e0, e1, -⟩ := idx_facts t
  unfold iblk
  rw [View.read_apply]
  show V m c main_v18 _ = V m c main_v18 _
  refine congrArg (V m c main_v18) ?_
  funext a; apply Fin.ext
  match a with
  | ⟨0, _⟩ => show win0_3.index t (0 : Fin 2) * 1 + 1 * 0 = 0; rw [e0]
  | ⟨1, _⟩ => show win0_3.index t (1 : Fin 2) * 16 + 1 * k.val = k.val; rw [e1]; omega

/-- Entry (k, j) of the result's block at grid point t sits at (k, 4096 t + j) of the result. -/
theorem emb4 (t : Fin cfg0.N) (k : Fin 16) (j : Fin 4096) (n : Fin 131072) (hn : n.val = t.val * 4096 + j.val) :
    ((cfg0.win 4).blk t).view.emb (ix2 k j) = (ix2 k n : S16x131072.Idx) := by
  obtain ⟨-, -, -, -, -, -, -, -, e8, e9⟩ := idx_facts t
  funext a; apply Fin.ext
  match a with
  | ⟨0, _⟩ => show win0_4.index t (0 : Fin 2) * 16 + 1 * k.val = k.val; rw [e8]; omega
  | ⟨1, _⟩ => show win0_4.index t (1 : Fin 2) * 4096 + 1 * j.val = n.val; rw [e9, hn]; omega

/-- What grid point t writes back is block t of scoreT of the staged arrays. -/
theorem flushed_eq (c : Dev nD) (t : Fin cfg0.N) :
    (dats m 0 c).flushed 4 t
      = ((cfg0.win 4).blk t).view.read (Elt Ideal) (scoreT (V m c main_v15) (V m c main_v16) (V m c main_v17) (V m c main_v18)) := by
  have hN : cfg0.N = 32 := N_0
  show (cfg0.win 4).cut (grid0.coords t) ((dats m 0 c).after 4 t) = _
  rw [after0_4]
  funext y
  show out0_4 (iblk m c 0 t) (iblk m c 1 t) (iblk m c 2 t) (iblk m c 3 t) y
    = scoreT (V m c main_v15) (V m c main_v16) (V m c main_v17) (V m c main_v18) (((cfg0.win 4).blk t).view.emb y)
  obtain ⟨k, j, rfl⟩ : ∃ (k : Fin 16) (j : Fin 4096), y = ix2 k j := ⟨y 0, y 1, eq_ix2 y⟩
  obtain ⟨n, hn⟩ : ∃ n : Fin 131072, n.val = t.val * 4096 + j.val :=
    ⟨⟨t.val * 4096 + j.val, by have := t.isLt; have := j.isLt; omega⟩, rfl⟩
  rw [emb4 t k j n hn, scoreT_apply]
  refine (block_apply (iblk m c 0 t) (iblk m c 1 t) (iblk m c 2 t) (iblk m c 3 t) k j).trans ?_
  rw [iblk3_apply m c t k]
  refine congrArg (· + _) (Finset.sum_congr rfl fun d _ => ?_)
  rw [iblk0_apply m c t d j n hn, iblk1_apply m c t d k, iblk2_apply m c t d k]

/-- An index of the result is in grid point t's block iff each coordinate is in the block's range on its axis. -/
theorem mem_blk4 (t : Fin cfg0.N) (i : S16x131072.Idx) :
    i ∈ ((cfg0.win 4).blk t).view.set ↔ ∀ a : Fin 2, win0_4.index t a * S16x4096.size a ≤ (i a).val ∧ (i a).val < win0_4.index t a * S16x4096.size a + S16x4096.size a := by
  show i ∈ ((View.whole main_v19).slice (win0_4.rect t)).set ↔ _
  rw [View.set_slice_whole, Rect.mem_set_unit]
  exact Iff.rfl

/-- The 32 blocks cover the result: lane n is in the block of grid point n / 4096. -/
theorem cover4 (i : S16x131072.Idx) : ∃ t : Fin cfg0.N, (cfg0.win 4).flush t = true ∧ i ∈ ((cfg0.win 4).blk t).view.set := by
  have hN : cfg0.N = 32 := N_0
  have h0 : (i 0).val < 16 := (i 0).isLt
  have h1 : (i 1).val < 131072 := (i 1).isLt
  obtain ⟨t, ht⟩ : ∃ t : Fin cfg0.N, t.val = (i 1).val / 4096 := ⟨⟨(i 1).val / 4096, by rw [hN]; omega⟩, rfl⟩
  obtain ⟨-, -, -, -, -, -, -, -, e8, e9⟩ := idx_facts t
  refine ⟨t, flush0_4 t, ?_⟩
  rw [mem_blk4]
  intro a
  match a with
  | ⟨0, _⟩ => show win0_4.index t (0 : Fin 2) * 16 ≤ (i 0).val ∧ (i 0).val < win0_4.index t (0 : Fin 2) * 16 + 16; rw [e8]; omega
  | ⟨1, _⟩ => show win0_4.index t (1 : Fin 2) * 4096 ≤ (i 1).val ∧ (i 1).val < win0_4.index t (1 : Fin 2) * 4096 + 4096; rw [e9, ht]; omega

/-- The result array after the call is scoreT of the staged arrays. -/
theorem final4 (c : Dev nD) :
    (dats m 0 c).arrAt 4 cfg0.N = scoreT (V m c main_v15) (V m c main_v16) (V m c main_v17) (V m c main_v18) :=
  (dats m 0 c).arrAt_eq_of_cover 4 (scoreT (V m c main_v15) (V m c main_v16) (V m c main_v17) (V m c main_v18))
    (fun t _ => flushed_eq m c t) cover4

end Cert.Gmm.Kern

end
-- ==== Proof.KernelTail.lean ====
/-
  The two host lines after the tiled program's region, read off the frame's post.

  The region leaves the scores as a [16, 131072] array, one row per component.  The program then transposes
  it to [131072, 16] and reshapes that to [32, 64, 64, 16].  After those two lines the result buffer holds the
  reshape of the transpose of the region's output array, and the four argument buffers are as launched.
-/
import proofs.«157063_j46755013984568_2_alg».proof.Proof.Gen.KernelIdeal.Frame
import Idealize.ShloMosaic.Lib.StableHlo.Run
import Idealize.ShloMosaic.Lib.Pipeline.Value

set_option maxRecDepth 16384

noncomputable section

namespace Cert.Gmm.KTail

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- After the two lines the result buffer holds the reshape of the transpose of the region's output array:
    the lines are applied to the contents the region leaves, which at the output window's array are the
    contents the frame computes for it. -/
theorem tail_eq (c : Dev nD) : Pipeline.afterTail₀ cfgs (dats m) 0 (V0 m) [hostOps1] c main_v21
      = shapeCast S32x64x64x16 (transpose S131072x16 [1, 0] ((dats m 0 c).arrAt 4 cfg0.N) transposes_S16x131072_S131072x16_1_0) shapeCasts_S131072x16_S32x64x64x16 := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.tc.devRef main_v19)
      = (dats m 0 c).arrAt 4 cfg0.N := Pipeline.withArrays_arr spec0 launch0.win.arr_inj c _ _ 4
  rw [e]
  rfl

/-- Every run ends with the result buffer at the reshape of the transpose of the region's output array and the
    four argument buffers as launched: the frame run's post read at those five buffers. -/
theorem run_tail : θ_run defs (onTc (τ := τ) (main (F := F))) ⟨m, fun _ => 0, ρ⟩ fun r => ∀ c : Dev nD,
      r.2.mem ((c.tc : Thread nD τ).loc main_v21) = shapeCast S32x64x64x16 (transpose S131072x16 [1, 0] ((dats m 0 c).arrAt 4 cfg0.N) transposes_S16x131072_S131072x16_1_0) shapeCasts_S131072x16_S32x64x64x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((h c).2 main_v21 (Pipeline.mem_restRefs_of main_v21 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)

end Cert.Gmm.KTail

end
-- ==== Proof.Spec.lean ====
/-
  The value both programs compute, written once over the extended reals.

  A point x_n in R^32 is scored against 16 diagonal Gaussians with means mu_k, deviations
  s_k = max (std_k, 0.1) clamped from below, and mixture weights softmax (alpha).  Per dimension the
  exponent -(x - mu)^2 / (2 s^2) is clamped from below at -10 before the sum over the 32 dimensions,
  and the score of component k is

      log softmax(alpha)_k + sum_d ( -1/2 log (2 pi s_kd^2) + max ( -(x_nd - mu_kd)^2 / (2 s_kd^2), -10 ) ).

  One program forms it as written (`direct`); the other splits the sum in two, writes the exponent as
  (x - mu)^2 * (-1/2 / s^2) and the log-weight as (alpha_k - M) - log sum_j exp (alpha_j - M) (`folded`).
  Here M is the maximum of alpha, kept as a parameter.  Every float constant stays the word the programs
  print; none is evaluated here.
-/
import Idealize.ShloMosaic.PureOps.Ideal
import Idealize.ShloMosaic.Lib.ValueIdx

noncomputable section

namespace Cert.Gmm

open Idealize.ShloMosaic Idealize.ShloMosaic.ValueIdx
open scoped BigOperators

/-- The points, one row per point: 131072 rows of 32 coordinates. -/
abbrev SPts : Shape := ⟨2, ![131072, 32]⟩
/-- A per-component, per-dimension parameter: 16 by 32. -/
abbrev SPar : Shape := ⟨2, ![16, 32]⟩
/-- One number per component. -/
abbrev SCmp : Shape := ⟨1, ![16]⟩
/-- The scores: one row per point, one column per component. -/
abbrev SOut : Shape := ⟨2, ![131072, 16]⟩

/-- The deviation of component k in dimension d, clamped from below at the word for 0.1. -/
def sdev (std : SPar.Idx → EReal) (k : Fin 16) (d : Fin 32) : EReal :=
  max (std (ix2 k d)) (Ideal.ofBits .f32 0x3DCCCCCD#32)

/-- The log of the normalising coefficient: -1/2 * log (2 pi * s^2), constants as printed words. -/
def logCoef (std : SPar.Idx → EReal) (k : Fin 16) (d : Fin 32) : EReal :=
  Ideal.ofBits .f32 0xBF000000#32 * Ideal.log (Ideal.ofBits .f32 0x40C90FDB#32 * (sdev std k d * sdev std k d))

/-- The squared deviation of point n from the mean of component k in dimension d. -/
def sqDev (X : SPts.Idx → EReal) (mu : SPar.Idx → EReal) (n : Fin 131072) (k : Fin 16) (d : Fin 32) : EReal :=
  (X (ix2 n d) - mu (ix2 k d)) * (X (ix2 n d) - mu (ix2 k d))

/-- The softmax denominator: 0 + the sum over the components of exp (alpha_j - M). -/
def expSum (alpha : SCmp.Idx → EReal) (M : EReal) : EReal :=
  Ideal.ofBits .f32 0x00000000#32 + ∑ j : SCmp.Idx, Ideal.exp (alpha j - M)

/-- The score as the plain program writes it. -/
def direct (X : SPts.Idx → EReal) (mu std : SPar.Idx → EReal) (alpha : SCmp.Idx → EReal) (M : EReal)
    (n : Fin 131072) (k : Fin 16) : EReal :=
  Ideal.log (Ideal.div (Ideal.exp (alpha (ix1 k) - M)) (expSum alpha M))
    + (Ideal.ofBits .f32 0x00000000#32
        + ∑ d : Fin 32, (logCoef std k d
            + max (Ideal.ofBits .f32 0xBF000000#32 * Ideal.div (sqDev X mu n k d) (sdev std k d * sdev std k d))
                (Ideal.ofBits .f32 0xC1200000#32)))

/-- The score as the tiled program writes it. -/
def folded (X : SPts.Idx → EReal) (mu std : SPar.Idx → EReal) (alpha : SCmp.Idx → EReal) (M : EReal)
    (n : Fin 131072) (k : Fin 16) : EReal :=
  (∑ d : Fin 32, max (sqDev X mu n k d * Ideal.div (Ideal.ofBits .f32 0xBF000000#32) (sdev std k d * sdev std k d))
      (Ideal.ofBits .f32 0xC1200000#32))
    + ((Ideal.ofBits .f32 0x00000000#32 + ∑ d : Fin 32, logCoef std k d)
        + ((alpha (ix1 k) - M) - Ideal.log (expSum alpha M)))

/-- The maximum of alpha as both programs compute it: max (-inf, the host's max-reduce of alpha from -inf). -/
def rowMax (alpha : SCmp.Idx → EReal) (h' : SCmp.ReducesTo [0] (⟨0, ![]⟩ : Shape)) (hu : 0 < (⟨0, ![]⟩ : Shape).numel) : EReal :=
  max (Ideal.ofBits .f32 0xFF800000#32)
    (Host.reduce (FloatOps.maximumf (F := Ideal) (φ := .f32)) alpha (constant (F := Ideal) (⟨0, ![]⟩ : Shape) .f32 0xFF800000#32) h' hu ix0)

end Cert.Gmm

end
-- ==== Proof.KernelHost.lean ====
/-
  What the host lines before the tiled program's call leave in the four arrays the call stages, read at one
  index over the extended reals: the points and the means transposed, the scale -1/2 / s^2 transposed, and
  per component the sum of the log-coefficients plus the log-weight.
-/
import proofs.«157063_j46755013984568_2_alg».proof.Proof.Spec
import proofs.«157063_j46755013984568_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.Gmm.KHost

open Idealize.ShloMosaic Idealize.ShloMosaic.TcCoe Idealize.ShloMosaic.ValueIdx Idealize.ShloMosaic.StableHlo
open Idealize.SL Idealize.SL.Sem
open Cert.KernelIdeal Cert.KernelIdeal.Gen
open scoped BigOperators

variable (m : (ℓ : Loc nD τ sig) → Buf (Elt Ideal) ℓ) (c : Dev nD)

/-! ## The four arguments as launched, as arrays of extended reals -/

/-- The points as launched. -/
abbrev argX : S32x64x64x32.Idx → EReal := m ((c : Thread nD τ).loc main_arg0)
/-- The means as launched. -/
abbrev argMu : S16x32.Idx → EReal := m ((c : Thread nD τ).loc main_arg1)
/-- The deviations as launched. -/
abbrev argStd : S16x32.Idx → EReal := m ((c : Thread nD τ).loc main_arg2)
/-- The mixture logits as launched. -/
abbrev argAlpha : S16.Idx → EReal := m ((c : Thread nD τ).loc main_arg3)

/-! ## The host's pointwise operations at an index -/

theorem hostLog_apply {s : Shape} (x : FVec Ideal s .f32) (i : s.Idx) :
    Host.log (F := Ideal) (φ := .f32) x i = Ideal.log (x i) := rfl
theorem hostExp_apply {s : Shape} (x : FVec Ideal s .f32) (i : s.Idx) :
    Host.exp (F := Ideal) (φ := .f32) x i = Ideal.exp (x i) := rfl
theorem hostDivf_apply {s : Shape} (x y : FVec Ideal s .f32) (i : s.Idx) :
    Host.divf (F := Ideal) (φ := .f32) x y i = Ideal.div (x i) (y i) := rfl

/-! ## A typed reference's transport is the identity -/

/-- Contents moved to a typed reference's buffer type and back are unchanged. -/
theorem ofBuf_toBuf {sig' : RefSig} {Val : EltTy → Type} {T : BufTy} (x : TRef sig' T) (v : T.Contents Val) :
    x.ofBuf (x.toBuf v) = v := by
  obtain ⟨r, rfl, _, _⟩ := x
  rfl

/-! ## The arrays as the operations' composed terms -/

/-- The means array is the transpose of the second argument. -/
theorem v16_term :
    (V m c main_v16 : S32x16.Idx → EReal)
      = transpose S32x16 [1, 0] (argMu m c) transposes_S16x32_S32x16_1_0 := by
  dsimp only [Gen.V, Gen.V0]
  simp only [Gen.hostOps0, Gen.hostOps0_1, Gen.hostOps0_2, List.flatten_cons, List.flatten_nil, List.append_nil,
    List.cons_append, List.nil_append]
  after_results

/-- The points array is the transpose of the first argument read as 131072 rows of 32. -/
theorem v15_term :
    (V m c main_v15 : S32x131072.Idx → EReal)
      = transpose S32x131072 [1, 0]
          (shapeCast S131072x32 (argX m c) shapeCasts_S32x64x64x32_S131072x32)
          transposes_S131072x32_S32x131072_1_0 := by
  dsimp only [Gen.V, Gen.V0]
  simp only [Gen.hostOps0, Gen.hostOps0_1, Gen.hostOps0_2, List.flatten_cons, List.flatten_nil, List.append_nil,
    List.cons_append, List.nil_append]
  after_results
  rfl

/-- The clamped deviations as an array. -/
def sClamp (std : S16x32.Idx → EReal) : S16x32.Idx → EReal :=
  maximumf (F := Ideal) (φ := .f32) std (broadcastInDim S16x32 ![] bcast_S_S16x32 (constant (F := Ideal) S_ .f32 0x3DCCCCCD#32))

/-- The scale array is the transpose of -1/2 / (s * s). -/
theorem v17_term :
    (V m c main_v17 : S32x16.Idx → EReal)
      = transpose S32x16 [1, 0]
          (Host.divf (F := Ideal) (φ := .f32)
            (broadcastInDim S16x32 ![] bcast_S_S16x32 (constant (F := Ideal) S_ .f32 0xBF000000#32))
            (mulf (F := Ideal) (φ := .f32) (sClamp (argStd m c)) (sClamp (argStd m c))))
          transposes_S16x32_S32x16_1_0 := by
  dsimp only [Gen.V, Gen.V0]
  simp only [Gen.hostOps0, Gen.hostOps0_1, Gen.hostOps0_2, List.flatten_cons, List.flatten_nil, List.append_nil,
    List.cons_append, List.nil_append]
  after_results
  rfl

/-- The maximum of the mixture logits, clamped from below at -inf and broadcast to the components. -/
def gmax (alpha : S16.Idx → EReal) : S16.Idx → EReal :=
  broadcastInDim S16 ![0] bcast_S1_S16_0 (broadcastInDim S1 ![] bcast_S_S1
    (maximumf (F := Ideal) (φ := .f32) (constant (F := Ideal) S_ .f32 0xFF800000#32)
      (Host.reduce (FloatOps.maximumf (F := Ideal) (φ := .f32)) alpha (constant (F := Ideal) S_ .f32 0xFF800000#32)
        reducesTo_S16_S_d0 h_S_)))

/-- The log-softmax of the mixture logits as an array: (alpha - M) - log (sum of exp (alpha - M)). -/
def lsm (alpha : S16.Idx → EReal) : S16.Idx → EReal :=
  subf (F := Ideal) (φ := .f32) (subf (F := Ideal) (φ := .f32) alpha (gmax alpha))
    (broadcastInDim S16 ![0] bcast_S1_S16_0 (Host.log (F := Ideal) (φ := .f32) (broadcastInDim S1 ![] bcast_S_S1
      (Host.reduceAdd (F := Ideal) (φ := .f32) (Host.exp (F := Ideal) (φ := .f32) (subf (F := Ideal) (φ := .f32) alpha (gmax alpha)))
        (constant (F := Ideal) S_ .f32 0x00000000#32) reducesTo_S16_S_d0 h_S_))))

/-- The log-coefficients as an array: -1/2 * log (2 pi * (s * s)). -/
def lcoef (std : S16x32.Idx → EReal) : S16x32.Idx → EReal :=
  mulf (F := Ideal) (φ := .f32) (broadcastInDim S16x32 ![] bcast_S_S16x32 (constant (F := Ideal) S_ .f32 0xBF000000#32))
    (Host.log (F := Ideal) (φ := .f32)
      (mulf (F := Ideal) (φ := .f32) (broadcastInDim S16x32 ![] bcast_S_S16x32 (constant (F := Ideal) S_ .f32 0x40C90FDB#32))
        (mulf (F := Ideal) (φ := .f32) (sClamp std) (sClamp std))))

/-- The bias array is the row of: the sum over the dimensions of the log-coefficients, plus the log-softmax. -/
theorem v18_term :
    (V m c main_v18 : S1x16.Idx → EReal)
      = shapeCast S1x16
          (addf (F := Ideal) (φ := .f32)
            (Host.reduceAdd (F := Ideal) (φ := .f32) (lcoef (argStd m c))
              (constant (F := Ideal) S_ .f32 0x00000000#32) reducesTo_S16x32_S16_d1 h_S_)
            (lsm (argAlpha m c)))
          shapeCasts_S16_S1x16 := by
  dsimp only [Gen.V, Gen.V0]
  simp only [Gen.hostOps0, Gen.hostOps0_1, Gen.hostOps0_2, List.flatten_cons, List.flatten_nil, List.append_nil,
    List.cons_append, List.nil_append]
  after_results_simp
  simp only [ofBuf_toBuf]
  rfl

/-! ## The arrays at an index -/

/-- The means: row d, column k is the mean of component k in dimension d. -/
theorem means (d : Fin 32) (k : Fin 16) :
    (V m c main_v16 : S32x16.Idx → EReal) (ix2 d k) = argMu m c (ix2 k d) := by
  rw [v16_term m c]
  exact transpose_ix2_apply _ _ d k

/-- The points: row d, column n is coordinate d of point n (the program's reshape is to the shape of the
    points array, and a reshape does not depend on which proof of the shape fact it is given). -/
theorem points (hc : S32x64x64x32.ShapeCasts Cert.Gmm.SPts) (d : Fin 32) (n : Fin 131072) :
    (V m c main_v15 : S32x131072.Idx → EReal) (ix2 d n) = shapeCast Cert.Gmm.SPts (argX m c) hc (ix2 n d) := by
  rw [v15_term m c]
  exact transpose_ix2_apply _ _ d n

/-- A scalar constant broadcast to a matrix reads the constant's word everywhere. -/
theorem bcast_const_apply (b : BitVec 32) (i : S16x32.Idx) :
    broadcastInDim S16x32 ![] bcast_S_S16x32 (constant (F := Ideal) S_ .f32 b) i = Ideal.ofBits .f32 b :=
  broadcastInDim_apply _ bcast_S_S16x32 _ i (fun a => a.elim0) (fun a => a.elim0)

/-- The clamped deviation at (k, d). -/
theorem sClamp_apply (std : S16x32.Idx → EReal) (k : Fin 16) (d : Fin 32) :
    sClamp std (ix2 k d) = Cert.Gmm.sdev std k d := by
  unfold sClamp Cert.Gmm.sdev
  rw [maximumf_apply, bcast_const_apply]

/-- The scales: row d, column k is -1/2 / s_kd^2. -/
theorem scales (d : Fin 32) (k : Fin 16) :
    (V m c main_v17 : S32x16.Idx → EReal) (ix2 d k)
      = Ideal.div (Ideal.ofBits .f32 0xBF000000#32)
          (Cert.Gmm.sdev (argStd m c) k d * Cert.Gmm.sdev (argStd m c) k d) := by
  rw [v17_term m c, transpose_ix2_apply, hostDivf_apply, mulf_apply, bcast_const_apply, sClamp_apply]

/-- A one-element array broadcast to the components reads its element everywhere. -/
theorem bcast_1_16_apply (y : S1.Idx → EReal) (j : S16.Idx) :
    broadcastInDim S16 ![0] bcast_S1_S16_0 y j = y (ix1 (0 : Fin 1)) :=
  broadcastInDim_apply _ bcast_S1_S16_0 y j (ix1 (0 : Fin 1)) (fun a => match a with
    | ⟨0, _⟩ => by show 0 = if (1 : Nat) = 1 then 0 else (j 0).val; rw [if_pos rfl])

/-- A scalar broadcast to a one-element array reads the scalar. -/
theorem bcast_0_1_apply (y : S_.Idx → EReal) (i : S1.Idx) :
    broadcastInDim S1 ![] bcast_S_S1 y i = y ix0 :=
  broadcastInDim_apply _ bcast_S_S1 y i ix0 (fun a => a.elim0)

/-- The broadcast maximum is `rowMax` at every component. -/
theorem gmax_apply (alpha : S16.Idx → EReal) (j : S16.Idx) :
    gmax alpha j = Cert.Gmm.rowMax alpha reducesTo_S16_S_d0 h_S_ := by
  unfold gmax
  rw [bcast_1_16_apply, bcast_0_1_apply]
  rfl

/-- The softmax denominator as the host computes it. -/
theorem softDen_eq (alpha : S16.Idx → EReal) (i : S_.Idx) :
    Host.reduceAdd (F := Ideal) (φ := .f32) (Host.exp (F := Ideal) (φ := .f32) (subf (F := Ideal) (φ := .f32) alpha (gmax alpha)))
        (constant (F := Ideal) S_ .f32 0x00000000#32) reducesTo_S16_S_d0 h_S_ i
      = Cert.Gmm.expSum alpha (Cert.Gmm.rowMax alpha reducesTo_S16_S_d0 h_S_) := by
  have e : ∀ j : S16.Idx, Host.exp (F := Ideal) (φ := .f32) (subf (F := Ideal) (φ := .f32) alpha (gmax alpha)) j
      = Ideal.exp (alpha j - Cert.Gmm.rowMax alpha reducesTo_S16_S_d0 h_S_) := fun j => by
    rw [hostExp_apply, subf_apply, gmax_apply]
  generalize Host.exp (F := Ideal) (φ := .f32) (subf (F := Ideal) (φ := .f32) alpha (gmax alpha)) = y0 at e ⊢
  simp only [Host.reduceAdd, Ideal.hostReduceAdd_def]
  rw [Ideal.hostReduceAdd_total reducesTo_S16_S_d0 (fun b => b.elim0) y0 _ i]
  unfold Cert.Gmm.expSum
  exact congrArg (_ + ·) (Finset.sum_congr rfl fun j _ => e j)

/-- The log-softmax at component k. -/
theorem lsm_apply (alpha : S16.Idx → EReal) (k : Fin 16) :
    lsm alpha (ix1 k)
      = (alpha (ix1 k) - Cert.Gmm.rowMax alpha reducesTo_S16_S_d0 h_S_)
        - Ideal.log (Cert.Gmm.expSum alpha (Cert.Gmm.rowMax alpha reducesTo_S16_S_d0 h_S_)) := by
  unfold lsm
  rw [subf_apply, subf_apply, gmax_apply, bcast_1_16_apply, hostLog_apply, bcast_0_1_apply, softDen_eq]

/-- The log-coefficient at (k, d). -/
theorem lcoef_apply (std : S16x32.Idx → EReal) (k : Fin 16) (d : Fin 32) :
    lcoef std (ix2 k d) = Cert.Gmm.logCoef std k d := by
  unfold lcoef Cert.Gmm.logCoef
  rw [mulf_apply, hostLog_apply, mulf_apply, mulf_apply, bcast_const_apply, bcast_const_apply, sClamp_apply]

/-- The sum of the log-coefficients over the dimensions, at component k. -/
theorem lcoefSum_apply (std : S16x32.Idx → EReal) (k : Fin 16) :
    Host.reduceAdd (F := Ideal) (φ := .f32) (lcoef std) (constant (F := Ideal) S_ .f32 0x00000000#32)
        reducesTo_S16x32_S16_d1 h_S_ (ix1 k)
      = Ideal.ofBits .f32 0x00000000#32 + ∑ d : Fin 32, Cert.Gmm.logCoef std k d := by
  have e : ∀ d : Fin 32, lcoef std (ix2 k d) = Cert.Gmm.logCoef std k d := lcoef_apply std k
  generalize lcoef std = y0 at e ⊢
  simp only [Host.reduceAdd, Ideal.hostReduceAdd_def]
  rw [Ideal.hostReduceAdd_single reducesTo_S16x32_S16_d1 (by decide)]
  refine congrArg (_ + ·) (Finset.sum_congr rfl fun d _ => ?_)
  refine Eq.trans (congrArg y0 (funext fun a => Fin.ext ?_)) (e d)
  match a with
  | ⟨0, _⟩ => rfl
  | ⟨1, _⟩ => rfl

/-- The bias: at component k, the sum of the log-coefficients plus the log-weight in its shifted form. -/
theorem bias (k : Fin 16) :
    (V m c main_v18 : S1x16.Idx → EReal) (ix2 (0 : Fin 1) k)
      = (Ideal.ofBits .f32 0x00000000#32 + ∑ d : Fin 32, Cert.Gmm.logCoef (argStd m c) k d)
        + ((argAlpha m c (ix1 k) - Cert.Gmm.rowMax (argAlpha m c) reducesTo_S16_S_d0 h_S_)
            - Ideal.log (Cert.Gmm.expSum (argAlpha m c) (Cert.Gmm.rowMax (argAlpha m c) reducesTo_S16_S_d0 h_S_))) := by
  rw [v18_term m c, shapeCast_a_1a_apply, addf_apply, lcoefSum_apply, lsm_apply]

end Cert.Gmm.KHost

end
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.LibSoftmaxReal.lean ====
/-
  Extended-real facts for a softmax: realness and positivity of its pieces, and the law that lets the
  normalisation move across a contraction.

  For a row of real logits a, the row maximum M (a fold of max from −∞ over a nonempty index set) is real; each
  numerator exp (a − M) is a positive real; and for real f, p and a real nonzero l,
      ∑ᵢ (pᵢ / l) · fᵢ = (∑ᵢ fᵢ · pᵢ) / l,
  which fails at the infinities. Built on the predicate IsReal of the mean-aggregation algebra.
-/
import proofs.«157063_j46755013984568_2_alg».proof.Proof.LibMeanAggregate
import Idealize.ShloMosaic.PureOps.Ideal
import Idealize.ShloMosaic.PureOps.ShapeOps
import Mathlib.Tactic.Ring

noncomputable section

namespace Cert.Lib.SoftmaxReal

open Idealize.ShloMosaic Cert.Lib.MeanAggregate
open scoped BigOperators

/-- Normalising before a contraction equals normalising after it, when every entry is real and
    the normaliser is a nonzero real:  ∑ᵢ (pᵢ / l) · fᵢ = (∑ᵢ fᵢ · pᵢ) / l. -/
theorem sum_div_mul {ι : Type} [Fintype ι] {f p : ι → EReal} {l : EReal}
    (hf : ∀ i, IsReal (f i)) (hp : ∀ i, IsReal (p i)) (hl : IsReal l) (h0 : l ≠ 0) :
    ∑ i, Ideal.div (p i) l * f i = Ideal.div (∑ i, f i * p i) l := by
  choose f' hf' using hf
  choose p' hp' using hp
  obtain ⟨b, rfl⟩ := hl
  have hb : b ≠ 0 := by
    rintro rfl
    exact h0 rfl
  obtain rfl : f = fun i => ((f' i : ℝ) : EReal) := funext hf'
  obtain rfl : p = fun i => ((p' i : ℝ) : EReal) := funext hp'
  simp only [Ideal.div_coe hb, ← EReal.coe_mul, sum_coe]
  refine congrArg _ ?_
  rw [Finset.sum_mul]
  refine Finset.sum_congr rfl fun i _ => ?_
  ring

/-- The maximum, from −∞, of a nonempty finite family of reals is real: it is at least one of
    them, so it is not −∞, and it is below +∞ because −∞ and every member are. -/
theorem isReal_fold_max {ι : Type} [Fintype ι] [Nonempty ι] (g : ι → EReal) (hg : ∀ k, IsReal (g k)) :
    IsReal ((Finset.univ : Finset ι).fold max (⊥ : EReal) g) := by
  obtain ⟨k0⟩ := (inferInstance : Nonempty ι)
  have hlo : g k0 ≤ (Finset.univ : Finset ι).fold max (⊥ : EReal) g :=
    (Finset.le_fold_max _).2 (Or.inr ⟨k0, Finset.mem_univ _, le_rfl⟩)
  have hhi : (Finset.univ : Finset ι).fold max (⊥ : EReal) g < ⊤ :=
    (Finset.fold_max_lt _).2 ⟨bot_lt_top, fun k _ => by
      obtain ⟨r, hr⟩ := hg k
      rw [hr]
      exact EReal.coe_lt_top r⟩
  obtain ⟨r0, hr0⟩ := hg k0
  rw [hr0] at hlo
  generalize (Finset.univ : Finset ι).fold max (⊥ : EReal) g = m at hlo hhi
  induction m using EReal.rec with
  | bot => exact absurd hlo (not_le.2 (EReal.bot_lt_coe r0))
  | coe r => exact ⟨r, rfl⟩
  | top => exact absurd hhi (lt_irrefl _)

/-- The exponential of a difference of two reals is a positive real. -/
theorem exp_sub_pos {a m : EReal} (ha : IsReal a) (hm : IsReal m) :
    ∃ r : ℝ, 0 < r ∧ Ideal.exp (a - m) = (r : EReal) := by
  obtain ⟨a', rfl⟩ := ha
  obtain ⟨m', rfl⟩ := hm
  refine ⟨Real.exp (a' - m'), Real.exp_pos _, ?_⟩
  rw [← EReal.coe_sub, Ideal.exp_coe]

/-- The bit pattern 0xFF800000 denotes −∞. -/
theorem ofBits_neg_inf : Ideal.ofBits .f32 0xFF800000#32 = (⊥ : EReal) := by
  simp [Ideal.ofBits, Ideal.ieee]

/-- A broadcast of an array of reals is an array of reals: each entry is an entry of the operand. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := by
  unfold broadcastInDim
  exact hx _

end Cert.Lib.SoftmaxReal

end
-- ==== Proof.Algebra.lean ====
/-
  The two ways of writing the mixture score agree on real inputs.

  Every entry of the points, means, deviations and weights is real, so the clamped deviation
  s = max (std, 0.1) is a positive real and s * s is a nonzero real: division by it is multiplication by
  its reciprocal, and in the commutative monoid of the extended reals
      h * (q * (1 / s^2)) = q * (h * (1 / s^2)).
  The sum over the dimensions of (L + E) splits as the sum of L plus the sum of E with no realness of L.
  For a real y and a positive real S, log (exp y / S) = y - log S.  What is left is a regrouping of three
  summands.
-/
import proofs.«157063_j46755013984568_2_alg».proof.Proof.Spec
import proofs.«157063_j46755013984568_2_alg».proof.Proof.LibMeanAggregate
import proofs.«157063_j46755013984568_2_alg».proof.Proof.LibSoftmaxReal
import Idealize.ShloMosaic.PureOps.Ideal.Laws
import Idealize.ShloMosaic.PureOps.Reduce

noncomputable section

namespace Cert.Gmm

open Idealize.ShloMosaic Idealize.ShloMosaic.ValueIdx Cert.Lib.MeanAggregate Cert.Lib.SoftmaxReal
open scoped BigOperators

/-- The word 0x3DCCCCCD denotes 13421773 / 2^27, a positive real. -/
theorem word_tenth_pos : ∃ r : ℝ, 0 < r ∧ Ideal.ofBits .f32 0x3DCCCCCD#32 = (r : EReal) := by
  refine ⟨13421773 * (2 ^ 27 : ℝ)⁻¹, by positivity, ?_⟩
  simp [Ideal.ofBits, Ideal.ieee]

/-- The clamped deviation squared is a nonzero real. -/
theorem sdev_sq_real (std : SPar.Idx → EReal) (hstd : ∀ i, IsReal (std i)) (k : Fin 16) (d : Fin 32) :
    ∃ b : ℝ, b ≠ 0 ∧ sdev std k d * sdev std k d = (b : EReal) := by
  obtain ⟨e, he, hw⟩ := word_tenth_pos
  obtain ⟨t, ht⟩ := hstd (ix2 k d)
  have hs : sdev std k d = ((max t e : ℝ) : EReal) := by
    unfold sdev
    rw [hw, ht, max_coe]
  have hpos : 0 < max t e := lt_max_of_lt_right he
  refine ⟨max t e * max t e, (mul_pos hpos hpos).ne', ?_⟩
  rw [hs, EReal.coe_mul]

/-- One dimension's exponent: scaling the quotient equals multiplying by the scaled reciprocal,
    h * (q / b) = q * (h / b) for a nonzero real b. -/
theorem term_eq (h q : EReal) {ss : EReal} {b : ℝ} (hb : b ≠ 0) (hss : ss = (b : EReal)) :
    h * Ideal.div q ss = q * Ideal.div h ss := by
  rw [hss, Ideal.div_coe hb, Ideal.div_coe hb, mul_left_comm]

/-- The softmax denominator is a positive real. -/
theorem expSum_pos (alpha : SCmp.Idx → EReal) (M : EReal) (halpha : ∀ j, IsReal (alpha j)) (hM : IsReal M) :
    ∃ S : ℝ, 0 < S ∧ expSum alpha M = (S : EReal) := by
  have hex : ∀ j : SCmp.Idx, ∃ r : ℝ, 0 < r ∧ Ideal.exp (alpha j - M) = (r : EReal) :=
    fun j => exp_sub_pos (halpha j) hM
  choose r hr using hex
  refine ⟨∑ j : SCmp.Idx, r j, ?_, ?_⟩
  · exact Finset.sum_pos (fun j _ => (hr j).1) ⟨ix1 0, Finset.mem_univ _⟩
  · unfold expSum
    rw [Ideal.ofBits_zero_f32, zero_add, ← sum_coe]
    exact Finset.sum_congr rfl fun j _ => (hr j).2

/-- The log-weight: log (exp y / S) = y - log S for a real y and a positive real S. -/
theorem logw_eq (y : ℝ) {S : ℝ} (hS : 0 < S) :
    Ideal.log (Ideal.div (Ideal.exp (y : EReal)) (S : EReal)) = (y : EReal) - Ideal.log (S : EReal) := by
  have hq : 0 < Real.exp y * (1 / S) := mul_pos (Real.exp_pos y) (one_div_pos.mpr hS)
  rw [Ideal.exp_coe, Ideal.div_coe hS.ne', ← EReal.coe_mul, Ideal.log_coe, Ideal.log_coe,
    if_neg (not_le.mpr hq), if_neg (not_le.mpr hS), ← EReal.coe_sub]
  congr 1
  rw [← div_eq_mul_one_div, Real.log_div (Real.exp_pos y).ne' hS.ne', Real.log_exp]

theorem folded_eq_direct (X : SPts.Idx → EReal) (mu std : SPar.Idx → EReal) (alpha : SCmp.Idx → EReal) (M : EReal)
    (hX : ∀ i, IsReal (X i)) (hmu : ∀ i, IsReal (mu i)) (hstd : ∀ i, IsReal (std i)) (halpha : ∀ j, IsReal (alpha j)) (hM : IsReal M)
    (n : Fin 131072) (k : Fin 16) : folded X mu std alpha M n k = direct X mu std alpha M n k := by
  obtain ⟨S, hS, hSe⟩ := expSum_pos alpha M halpha hM
  obtain ⟨a, ha⟩ := halpha (ix1 k)
  obtain ⟨m, hm⟩ := hM
  have hy : alpha (ix1 k) - M = ((a - m : ℝ) : EReal) := by rw [ha, hm, EReal.coe_sub]
  have hterm : ∀ d : Fin 32,
      max (sqDev X mu n k d * Ideal.div (Ideal.ofBits .f32 0xBF000000#32) (sdev std k d * sdev std k d))
          (Ideal.ofBits .f32 0xC1200000#32)
        = max (Ideal.ofBits .f32 0xBF000000#32 * Ideal.div (sqDev X mu n k d) (sdev std k d * sdev std k d))
          (Ideal.ofBits .f32 0xC1200000#32) := by
    intro d
    obtain ⟨b, hb, hss⟩ := sdev_sq_real std hstd k d
    rw [term_eq _ _ hb hss]
  unfold folded direct
  rw [Finset.sum_congr rfl fun d _ => hterm d, Finset.sum_add_distrib, hSe, hy, logw_eq _ hS,
    Ideal.ofBits_zero_f32, zero_add, zero_add]
  generalize (∑ d : Fin 32, max (Ideal.ofBits .f32 0xBF000000#32 * Ideal.div (sqDev X mu n k d) (sdev std k d * sdev std k d))
      (Ideal.ofBits .f32 0xC1200000#32)) = A
  generalize (∑ d : Fin 32, logCoef std k d) = B
  generalize (((a - m : ℝ) : EReal) - Ideal.log (S : EReal)) = C
  rw [add_comm C, add_comm B A, add_assoc]

/-- The maximum of the weights, as the programs compute it, is real. -/
theorem rowMax_isReal (alpha : SCmp.Idx → EReal) (h' : SCmp.ReducesTo [0] (⟨0, ![]⟩ : Shape)) (hu : 0 < (⟨0, ![]⟩ : Shape).numel)
    (halpha : ∀ j, IsReal (alpha j)) : IsReal (rowMax alpha h' hu) := by
  haveI : Nonempty SCmp.Idx := ⟨ix1 0⟩
  unfold rowMax
  rw [Host.reduce_eq_fold (FloatOps.maximumf (F := Ideal) (φ := .f32)) alpha _ h' hu ix0, ofBits_neg_inf, max_eq_right bot_le]
  have hi : (constant (F := Ideal) (⟨0, ![]⟩ : Shape) .f32 0xFF800000#32) (Shape.Idx.first hu) = (⊥ : EReal) :=
    ofBits_neg_inf
  have hall : (Finset.univ.filter fun i : SCmp.Idx => h'.drop i = ix0) = Finset.univ :=
    Finset.filter_true_of_mem fun i _ => funext fun b => b.elim0
  rw [hi, hall]
  exact isReal_fold_max alpha halpha

end Cert.Gmm

end
-- ==== Proof.RefScore.lean ====
/-
  The reference program computes the score `direct`: every operation of the program, read at one
  index, is one step of the formula, and the layout operations (broadcasts, the reshape of the points)
  only choose which coordinates of the arguments are read.
-/
import proofs.«157063_j46755013984568_2_alg».proof.Proof.Spec
import proofs.«157063_j46755013984568_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Gmm.Ref

open Idealize.ShloMosaic Idealize.ShloMosaic.ValueIdx
open Cert.ReferenceIdeal Cert.ReferenceIdeal.Gen Cert.ReferenceIdeal.Read
open scoped BigOperators

/-! ## The softmax half: the log-weight of component k -/

section Weight
variable (x3 : FVec Ideal S16 .f32) (h' : S16.ReducesTo [0] S_) (hu : 0 < S_.numel)

/-- The maximum the program subtracts is `rowMax`. -/
theorem v3_eq (i : S_.Idx) :
    val_main_v3 (F := Ideal) x3 i = Cert.Gmm.rowMax x3 h' hu := by
  rw [eq_ix0 i]
  rfl

/-- Broadcast to the components, it is the same number at every component. -/
theorem v5_eq (j : S16.Idx) :
    val_main_v5 (F := Ideal) x3 j = Cert.Gmm.rowMax x3 h' hu := by
  rw [val_main_v5_apply, val_main_v4_apply, v3_eq x3 h' hu]

/-- The shifted exponential of component j. -/
theorem v7_eq (j : S16.Idx) :
    val_main_v7 (F := Ideal) x3 j = Ideal.exp (x3 j - Cert.Gmm.rowMax x3 h' hu) := by
  rw [val_main_v7_apply, val_main_v6_apply, v5_eq x3 h' hu]
  rfl

/-- The softmax denominator. -/
theorem v8_eq (i : S_.Idx) :
    val_main_v8 (F := Ideal) x3 i = Cert.Gmm.expSum x3 (Cert.Gmm.rowMax x3 h' hu) := by
  rw [val_main_v8_apply, val_main_cst_2_apply]
  unfold Cert.Gmm.expSum
  refine congrArg (_ + ·) (Finset.sum_congr rfl fun j _ => ?_)
  exact v7_eq x3 h' hu j

/-- Broadcast to the components. -/
theorem v10_eq (j : S16.Idx) :
    val_main_v10 (F := Ideal) x3 j = Cert.Gmm.expSum x3 (Cert.Gmm.rowMax x3 h' hu) := by
  rw [val_main_v10_apply, val_main_v9_apply, v8_eq x3 h' hu]

/-- The softmax weight of component j. -/
theorem v11_eq (j : S16.Idx) :
    val_main_v11 (F := Ideal) x3 j
      = Ideal.div (Ideal.exp (x3 j - Cert.Gmm.rowMax x3 h' hu)) (Cert.Gmm.expSum x3 (Cert.Gmm.rowMax x3 h' hu)) := by
  rw [val_main_v11_apply, v7_eq x3 h' hu, v10_eq x3 h' hu]
  rfl

/-- The log-weight, broadcast along the points: at (n, k) it is the log-weight of component k. -/
theorem v38_eq (n : Fin 131072) (k : Fin 16) :
    val_main_v38 (F := Ideal) x3 (ix2 n k)
      = Ideal.log (Ideal.div (Ideal.exp (x3 (ix1 k) - Cert.Gmm.rowMax x3 h' hu))
          (Cert.Gmm.expSum x3 (Cert.Gmm.rowMax x3 h' hu))) := by
  have hi : idx_main_v37 (idx_main_v38 (ix2 n k)) = ix1 k :=
    funext fun a => Fin.ext (by match a with | ⟨0, _⟩ => rfl)
  rw [val_main_v38_apply, val_main_v37_apply, val_main_v36_apply, hi, v11_eq x3 h' hu]
  rfl

end Weight

/-! ## The Gaussian half: the sum over the 32 dimensions -/

section Gauss
variable (x0 : FVec Ideal S32x64x64x32 .f32) (x1 x2 : FVec Ideal S16x32 .f32)

/-- The clamped deviation. -/
theorem v1_eq (k : Fin 16) (d : Fin 32) :
    val_main_v1 (F := Ideal) x2 (ix2 k d) = Cert.Gmm.sdev x2 k d := by
  rw [val_main_v1_apply, val_main_v0_apply, val_main_cst_apply]
  rfl

/-- The log of the normalising coefficient. -/
theorem v31_eq (k : Fin 16) (d : Fin 32) :
    val_main_v31 (F := Ideal) x2 (ix2 k d) = Cert.Gmm.logCoef x2 k d := by
  rw [val_main_v31_apply, val_main_v30_apply, val_main_cst_6_apply, val_main_v29_apply, val_main_v28_apply,
    val_main_v27_apply, val_main_cst_5_apply, val_main_v26_apply, v1_eq x2]
  rfl

/-- Broadcast along the points. -/
theorem v33_eq (n : Fin 131072) (k : Fin 16) (d : Fin 32) :
    val_main_v33 (F := Ideal) x2 (ix3 n k d) = Cert.Gmm.logCoef x2 k d := by
  have hi : idx_main_v32 (idx_main_v33 (ix3 n k d)) = ix2 k d :=
    funext fun a => Fin.ext (by match a with | ⟨0, _⟩ => rfl | ⟨1, _⟩ => rfl)
  rw [val_main_v33_apply, val_main_v32_apply, hi, v31_eq x2]

/-- The squared deviation of the Gaussian, broadcast along the points. -/
theorem v20_eq (n : Fin 131072) (k : Fin 16) (d : Fin 32) :
    val_main_v20 (F := Ideal) x2 (ix3 n k d) = Cert.Gmm.sdev x2 k d * Cert.Gmm.sdev x2 k d := by
  have hi : idx_main_v19 (idx_main_v20 (ix3 n k d)) = ix2 k d :=
    funext fun a => Fin.ext (by match a with | ⟨0, _⟩ => rfl | ⟨1, _⟩ => rfl)
  rw [val_main_v20_apply, val_main_v19_apply, hi, val_main_v18_apply, v1_eq x2]
  rfl

/-- The mean, broadcast along the points. -/
theorem v15_eq (n : Fin 131072) (k : Fin 16) (d : Fin 32) :
    val_main_v15 (F := Ideal) x1 (ix3 n k d) = x1 (ix2 k d) := by
  have hi : idx_main_v13 (idx_main_v15 (ix3 n k d)) = ix2 k d :=
    funext fun a => Fin.ext (by match a with | ⟨0, _⟩ => rfl | ⟨1, _⟩ => rfl)
  rw [val_main_v15_apply, val_main_v13_apply, hi]

/-- The point, broadcast along the components: coordinate d of point n of the array of points read as
    131072 rows of 32 (both reshapes keep the row-major position n * 32 + d). -/
theorem v14_eq (hc : S32x64x64x32.ShapeCasts Cert.Gmm.SPts) (n : Fin 131072) (k : Fin 16) (d : Fin 32) :
    val_main_v14 (F := Ideal) x0 (ix3 n k d) = shapeCast Cert.Gmm.SPts x0 hc (ix2 n d) := by
  rw [val_main_v14_apply, val_main_v12_apply]
  refine (shapeCast_apply x0 hc (ix2 n d) _ ?_).symm
  rw [Shape.rowMajor_val_four, Shape.rowMajor_val_two]
  have hn : n.val < 131072 := n.isLt
  have hd : d.val < 32 := d.isLt
  show ((((n.val * 1 + 0) * 32 + d.val) / 131072 * 64 + ((n.val * 1 + 0) * 32 + d.val) / 2048 % 64) * 64
      + ((n.val * 1 + 0) * 32 + d.val) / 32 % 64) * 32 + ((n.val * 1 + 0) * 32 + d.val) % 32 = n.val * 32 + d.val
  omega

/-- The term of the sum at dimension d. -/
theorem v34_eq (hc : S32x64x64x32.ShapeCasts Cert.Gmm.SPts) (n : Fin 131072) (k : Fin 16) (d : Fin 32) :
    val_main_v34 (F := Ideal) x0 x1 x2 (ix3 n k d)
      = Cert.Gmm.logCoef x2 k d
        + max (Ideal.ofBits .f32 0xBF000000#32
                * Ideal.div (Cert.Gmm.sqDev (shapeCast Cert.Gmm.SPts x0 hc) x1 n k d)
                    (Cert.Gmm.sdev x2 k d * Cert.Gmm.sdev x2 k d))
            (Ideal.ofBits .f32 0xC1200000#32) := by
  rw [val_main_v34_apply, v33_eq x2, val_main_v25_apply, val_main_v24_apply, val_main_cst_4_apply,
    val_main_v23_apply, val_main_v22_apply, val_main_cst_3_apply, val_main_v21_apply, v20_eq x2,
    val_main_v17_apply, val_main_v16_apply, v14_eq x0 hc, v15_eq x1]
  rfl

/-- The sum over the dimensions. -/
theorem v35_eq (hc : S32x64x64x32.ShapeCasts Cert.Gmm.SPts) (n : Fin 131072) (k : Fin 16) :
    val_main_v35 (F := Ideal) x0 x1 x2 (ix2 n k)
      = Ideal.ofBits .f32 0x00000000#32
        + ∑ d : Fin 32, (Cert.Gmm.logCoef x2 k d
            + max (Ideal.ofBits .f32 0xBF000000#32
                    * Ideal.div (Cert.Gmm.sqDev (shapeCast Cert.Gmm.SPts x0 hc) x1 n k d)
                        (Cert.Gmm.sdev x2 k d * Cert.Gmm.sdev x2 k d))
                (Ideal.ofBits .f32 0xC1200000#32)) := by
  rw [val_main_v35_apply, val_main_cst_7_apply]
  refine congrArg (_ + ·) (Finset.sum_congr rfl fun d _ => ?_)
  have hi : idx_main_v35 (ix2 n k) d = ix3 n k d :=
    funext fun a => Fin.ext (by match a with | ⟨0, _⟩ => rfl | ⟨1, _⟩ => rfl | ⟨2, _⟩ => rfl)
  rw [hi, v34_eq x0 x1 x2 hc]

end Gauss

/-! ## The score -/

/-- The reference program's score of point n against component k is `direct`, at the points read as
    131072 rows of 32 coordinates and at the maximum of the mixture logits the program itself computes. -/
theorem score_apply [Cert.ReferenceIdeal.Facts] (x0 : FVec Ideal S32x64x64x32 .f32) (x1 x2 : FVec Ideal S16x32 .f32)
    (x3 : FVec Ideal S16 .f32) (hc : S32x64x64x32.ShapeCasts Cert.Gmm.SPts) (n : Fin 131072) (k : Fin 16) :
    val_main_v39 (F := Ideal) x0 x1 x2 x3 (ix2 n k)
      = Cert.Gmm.direct (shapeCast Cert.Gmm.SPts x0 hc) x1 x2 x3
          (Cert.Gmm.rowMax x3 Facts₀.reducesTo_S16_S_d0 Facts₀.h_S_) n k := by
  rw [val_main_v39_apply, v38_eq x3 Facts₀.reducesTo_S16_S_d0 Facts₀.h_S_, v35_eq x0 x1 x2 hc]
  rfl

end Cert.Gmm.Ref

end
-- ==== Proof.Bridge.lean ====
/-
  The two programs' score arrays are equal.

  Entry (n, k) of the tiled program's result, transposed, is the folded form of the score of point n against
  component k, once the four arrays the call stages are named by what they hold: the points transposed, the
  means transposed, the scaled reciprocals -1/2 / s^2, and the bias row (the sum of the log coefficients plus the
  log-weight).  The plain program's entry (n, k) is the direct form.  On real inputs the two forms agree.
-/
import proofs.«157063_j46755013984568_2_alg».proof.Proof.Spec
import proofs.«157063_j46755013984568_2_alg».proof.Proof.Algebra
import proofs.«157063_j46755013984568_2_alg».proof.Proof.RefScore
import proofs.«157063_j46755013984568_2_alg».proof.Proof.KernelBlocks
import Idealize.ShloMosaic.Lib.ValueLayout

noncomputable section

open scoped BigOperators

namespace Cert.Gmm.Bridge

open Idealize.ShloMosaic Idealize.ShloMosaic.ValueIdx Cert.Lib.MeanAggregate

theorem scores_agree [Cert.ReferenceIdeal.Facts] (x0 : FVec Ideal Cert.ReferenceIdeal.S32x64x64x32 .f32)
    (x1 x2 : FVec Ideal Cert.ReferenceIdeal.S16x32 .f32) (x3 : FVec Ideal Cert.ReferenceIdeal.S16 .f32)
    (hc : Cert.ReferenceIdeal.S32x64x64x32.ShapeCasts Cert.Gmm.SPts)
    (X : Cert.KernelIdeal.S32x131072.Idx → EReal) (Mu C : Cert.KernelIdeal.S32x16.Idx → EReal)
    (B : Cert.KernelIdeal.S1x16.Idx → EReal) (M : EReal)
    (hM : M = Cert.Gmm.rowMax x3 Cert.ReferenceIdeal.Facts₀.reducesTo_S16_S_d0 Cert.ReferenceIdeal.Facts₀.h_S_)
    (hX : ∀ (d : Fin 32) (n : Fin 131072), X (ix2 d n) = shapeCast Cert.Gmm.SPts x0 hc (ix2 n d))
    (hMu : ∀ (d : Fin 32) (k : Fin 16), Mu (ix2 d k) = x1 (ix2 k d))
    (hC : ∀ (d : Fin 32) (k : Fin 16), C (ix2 d k)
      = Ideal.div (Ideal.ofBits .f32 0xBF000000#32) (Cert.Gmm.sdev x2 k d * Cert.Gmm.sdev x2 k d))
    (hB : ∀ k : Fin 16, B (ix2 (0 : Fin 1) k)
      = (Ideal.ofBits .f32 0x00000000#32 + ∑ d : Fin 32, Cert.Gmm.logCoef x2 k d)
        + ((x3 (ix1 k) - M) - Ideal.log (Cert.Gmm.expSum x3 M)))
    (r0 : ∀ i, IsReal (x0 i)) (r1 : ∀ i, IsReal (x1 i)) (r2 : ∀ i, IsReal (x2 i)) (r3 : ∀ i, IsReal (x3 i))
    (ht : Cert.KernelIdeal.S16x131072.Transposes [1, 0] Cert.KernelIdeal.S131072x16) :
    transpose Cert.KernelIdeal.S131072x16 [1, 0] (Cert.Gmm.Kern.scoreT X Mu C B) ht
      = Cert.ReferenceIdeal.Read.val_main_v39 (F := Ideal) x0 x1 x2 x3 := by
  funext i
  obtain ⟨n, k, rfl⟩ : ∃ (n : Fin 131072) (k : Fin 16), i = ix2 n k := ⟨i 0, i 1, eq_ix2 i⟩
  -- the maximum of the weights is real, and so is every coordinate of every point
  have hMr : IsReal M := by rw [hM]; exact Cert.Gmm.rowMax_isReal x3 _ _ r3
  have hXr : ∀ j, IsReal (shapeCast Cert.Gmm.SPts x0 hc j) := fun j => by unfold shapeCast; exact r0 _
  -- the plain program's entry is the direct form, which on real inputs is the folded form
  rw [Cert.Gmm.Ref.score_apply x0 x1 x2 x3 hc n k, ← hM,
    ← Cert.Gmm.folded_eq_direct (shapeCast Cert.Gmm.SPts x0 hc) x1 x2 x3 M hXr r1 r2 r3 hMr n k]
  -- the tiled program's entry, with the staged arrays named, is the folded form
  refine (transpose_ix2_apply _ ht n k).trans ?_
  rw [Cert.Gmm.Kern.scoreT_apply, hB k]
  unfold Cert.Gmm.folded Cert.Gmm.sqDev
  refine congrArg (· + _) (Finset.sum_congr rfl fun d _ => ?_)
  rw [hX d n, hMu d k, hC d k]

end Cert.Gmm.Bridge

end
-- ==== Proof.Finite.lean ====
/-
  The finiteness precondition, read back: every entry of the four inputs is a real number.

  The predicate is the conjunction of four tests "all of |v| < +∞", each a reduction by "and" from 1 over all
  axes of the elementwise comparison of max (v, -v) with the word 0x7F800000 = +∞.  A conjunction that is 1 has
  both sides 1; a reduction by "and" into a single index that is 1 met a 1 at every index; and an extended
  real x with max (x, -x) < +∞ is neither -∞ nor +∞ (for both, the maximum is +∞).
-/
import proofs.«157063_j46755013984568_2_alg».proof.Pre_finite_inputs
import proofs.«157063_j46755013984568_2_alg».proof.Proof.LibMeanAggregate
import Idealize.ShloMosaic.Lib.ReduceAll
import Idealize.ShloMosaic.Lib.ValueIdx

noncomputable section

namespace Cert.Gmm

open Idealize.ShloMosaic Cert.Lib.MeanAggregate

/-- An extended real whose absolute value max (x, -x) lies strictly below +∞ (the word 0x7F800000) is real. -/
theorem isReal_of_abs_lt (x : EReal)
    (h : Ideal.cmp .olt (max x (-x)) (Ideal.ofBits .f32 0x7F800000#32) = 1#1) : IsReal x := by
  induction x using EReal.rec with
  | bot => simp [Ideal.cmp, Ideal.ofBits, Ideal.ieee] at h
  | coe r => exact ⟨r, rfl⟩
  | top => simp [Ideal.cmp, Ideal.ofBits, Ideal.ieee] at h

/-- Under the finiteness precondition every entry of the points, the means, the deviations and the weights is real. -/
theorem real_of_finite [Cert.Pre_finite_inputs.Facts] (x : FVec Ideal Cert.Pre_finite_inputs.S32x64x64x32 .f32) (mu std : FVec Ideal Cert.Pre_finite_inputs.S16x32 .f32) (alpha : FVec Ideal Cert.Pre_finite_inputs.S16 .f32)
    (h : Cert.Pre_finite_inputs.fn (F := Ideal) x mu std alpha = fun _ => 1#1) :
    (∀ i, IsReal (x i)) ∧ (∀ i, IsReal (mu i)) ∧ (∀ i, IsReal (std i)) ∧ (∀ i, IsReal (alpha i)) := by
  -- the result of a reduction over all axes has a single index
  haveI : Subsingleton Cert.Pre_finite_inputs.S_.Idx := ⟨fun a b => funext fun d => d.elim0⟩
  have e := congrFun h ValueIdx.ix0
  dsimp only [Cert.Pre_finite_inputs.fn, Cert.Pre_finite_inputs.fn_part1] at e
  -- ((all x ∧ all mu) ∧ all std) ∧ all alpha
  obtain ⟨e123, e4⟩ := IntOp.andi_eq_one.1 e
  obtain ⟨e12, e3⟩ := IntOp.andi_eq_one.1 e123
  obtain ⟨e1, e2⟩ := IntOp.andi_eq_one.1 e12
  exact ⟨fun i => isReal_of_abs_lt (x i) (Host.reduce_andi_all _ _ _ _ _ e1 i),
    fun i => isReal_of_abs_lt (mu i) (Host.reduce_andi_all _ _ _ _ _ e2 i),
    fun i => isReal_of_abs_lt (std i) (Host.reduce_andi_all _ _ _ _ _ e3 i),
    fun i => isReal_of_abs_lt (alpha i) (Host.reduce_andi_all _ _ _ _ _ e4 i)⟩

end Cert.Gmm

end
-- ==== Proof.lean ====
/-
  A mixture of 16 diagonal Gaussians scored at 131072 points of R^32: the tiled program against the plain one.

  Both programs clamp the deviations at 0.1 from below, clamp each per-dimension exponent at -10 from below and add
  the log-weight log softmax(alpha)_k.  The plain program forms, per point n and component k,
      log (exp (alpha_k - M) / S) + sum_d ( -1/2 log (2 pi s_kd^2) + max (-1/2 ((x_nd - mu_kd)^2 / s_kd^2), -10) ),
  M the maximum of alpha and S = sum_j exp (alpha_j - M).  The tiled program first folds the constants on the host
  — c_kd = -1/2 / s_kd^2, b_k = sum_d (-1/2 log (2 pi s_kd^2)) + ((alpha_k - M) - log S) —, lays points and tables out
  with the points along the lanes, and then per block of 4096 points computes sum_d max ((x - mu)^2 c, -10) + b, row by
  row; two host lines transpose and reshape the result.  Over the extended reals the two agree when every input is a
  real number: the quotient by s^2 > 0 is a product with its reciprocal, log (e^y / S) = y - log S for S > 0, and the
  sum over d splits.  Finiteness of the inputs is used for exactly these three steps.

  The three frames are the generated ones (the plain program's from its generated run); nothing was rewritten by the
  idealization, so that claim is trivial.  The value claim is assembled here from: the body's block read entry by
  entry, the blocks glued to the result array, the host lines before and after the call read at an index, the plain
  program read at an index, and the law above.
-/
import proofs.«157063_j46755013984568_2_alg».proof.Defs
import proofs.«157063_j46755013984568_2_alg».proof.Proof.Gen.Kernel
import proofs.«157063_j46755013984568_2_alg».proof.Proof.Gen.Kernel.Skeleton
import proofs.«157063_j46755013984568_2_alg».proof.Proof.Gen.Kernel.Launch
import proofs.«157063_j46755013984568_2_alg».proof.Proof.Gen.Kernel.Points
import proofs.«157063_j46755013984568_2_alg».proof.Proof.Gen.Kernel.Frame
import proofs.«157063_j46755013984568_2_alg».proof.Proof.Gen.KernelIdeal
import proofs.«157063_j46755013984568_2_alg».proof.Proof.Gen.KernelIdeal.Skeleton
import proofs.«157063_j46755013984568_2_alg».proof.Proof.Gen.KernelIdeal.Launch
import proofs.«157063_j46755013984568_2_alg».proof.Proof.Gen.KernelIdeal.Points
import proofs.«157063_j46755013984568_2_alg».proof.Proof.Gen.KernelIdeal.Frame
import proofs.«157063_j46755013984568_2_alg».proof.Proof.Gen.ReferenceIdeal
import proofs.«157063_j46755013984568_2_alg».proof.Proof.Gen.Pre_finite_inputs
import proofs.«157063_j46755013984568_2_alg».proof.Proof.Gen.ReferenceIdeal.Run
import proofs.«157063_j46755013984568_2_alg».proof.Proof.Gen.ReferenceIdeal.Read
import proofs.«157063_j46755013984568_2_alg».proof.Proof.KernelBlocks
import proofs.«157063_j46755013984568_2_alg».proof.Proof.KernelTail
import proofs.«157063_j46755013984568_2_alg».proof.Proof.KernelHost
import proofs.«157063_j46755013984568_2_alg».proof.Proof.Bridge
import proofs.«157063_j46755013984568_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The plain program's result, at arguments that are real numbers, is the reshape of the transpose of the array the
    tiled program's call leaves: entry (n, k) of both is the score of point n against component k. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = shapeCast Cert.KernelIdeal.S32x64x64x16
          (transpose Cert.KernelIdeal.S131072x16 [1, 0] ((Cert.KernelIdeal.Gen.dats m 0 c).arrAt 4 Cert.KernelIdeal.cfg0.N)
            Cert.KernelIdeal.Gen.transposes_S16x131072_S131072x16_1_0)
          Cert.KernelIdeal.Gen.shapeCasts_S131072x16_S32x64x64x16 := by
  obtain ⟨r0, r1, r2, r3⟩ := Cert.Gmm.real_of_finite _ _ _ _ (hpre c)
  rw [Cert.Gmm.Kern.final4 m c,
    Cert.Gmm.Bridge.scores_agree _ _ _ _ Cert.KernelIdeal.Gen.shapeCasts_S32x64x64x32_S131072x32 _ _ _ _ _ rfl
      (Cert.Gmm.KHost.points m c Cert.KernelIdeal.Gen.shapeCasts_S32x64x64x32_S131072x32) (Cert.Gmm.KHost.means m c)
      (Cert.Gmm.KHost.scales m c) (Cert.Gmm.KHost.bias m c) r0 r1 r2 r3
      Cert.KernelIdeal.Gen.transposes_S16x131072_S131072x16_1_0]
  rfl

/-- Both programs run; the tiled one ends with its result at the reshape of the transpose of the call's array, the
    plain one with its result at its last stage, and the two are one array. -/
theorem algebraic : Cert.algebraic_KernelIdeal_ReferenceIdeal := by
  intro m ρ m' ρ' hpre hagree
  refine ⟨fun c => shapeCast Cert.KernelIdeal.S32x64x64x16
      (transpose Cert.KernelIdeal.S131072x16 [1, 0] ((Cert.KernelIdeal.Gen.dats m 0 c).arrAt 4 Cert.KernelIdeal.cfg0.N)
        Cert.KernelIdeal.Gen.transposes_S16x131072_S131072x16_1_0)
      Cert.KernelIdeal.Gen.shapeCasts_S131072x16_S32x64x64x16,
    Cert.Gmm.KTail.run_tail (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2]
  exact result_eq m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
